-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x256 : Shape := ⟨2, ![100000, 256]⟩

abbrev nBuf : Space → Nat
  | .hbm => 54
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x256, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x1, .f32⟩
  | .local _ .vmem, ⟨20, _⟩ => ⟨S5000x1, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S100000x128_S100000x128_S100000x256_d1 : Shape.Concatenates [S100000x128, S100000x128] S100000x256 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x256 : Shape := ⟨2, ![100000, 256]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S100000x128, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S1x1600000, .i32⟩
  | 72 => ⟨S1600000, .i32⟩
  | 73 => ⟨S1x1600000, .i32⟩
  | 74 => ⟨S1600000, .i32⟩
  | 75 => ⟨S100000, .i32⟩
  | 76 => ⟨S1700000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x1, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_c_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_call3_cst : Ref sig .tc := ⟨.hbm, 131, rfl⟩
abbrev main_call3_v0 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KerRun.lean ====
/-
  The idealized kernel program's run with its result named.

  @main is eight segments: host operations, the first matmul-and-scale launch, host operations (the gather along the
  edge sources and the accumulation at the edge destinations), the first epilogue launch, the second matmul-and-scale
  launch, host operations, the second epilogue launch, and the final concatenation. The buffer contents at each
  boundary are a fold from the launch memory (`W0` … `W8`). Every weakly fair execution terminates without a fault
  with every unscoped buffer at the last boundary's contents `W8`; read at the result buffer this names the result,
  and read at the arguments it says they are unchanged.
-/
import proofs.«103099_j38268158607494_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v38) = W8 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v38 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunV

end
-- ==== Proof.LibKeepdims.lean ====
/-
  Two layout readings of a column kept beside a matrix: a vector of length a viewed as an [a, 1] column reads its
  entry at the row, and an [a, 1] column spread over b lanes reads, at (p, c), its entry at row p.
-/
import Idealize.ShloMosaic.Lib.Pipeline.Value
import Idealize.ShloMosaic.Lib.ValueIdx

noncomputable section

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.KerPay.lean ====
/-
  The two kernel bodies read at an index, over the extended reals.

  * Matmul-and-scale: a block of 5000 rows of the features, the 128 x 128 weight matrix and a column of 5000 row
    scales give, at row p and column q, (sum over k of x p k * w k q) * d p. Narrowing both factors to a shorter
    float format first changes nothing over the extended reals, and the accumulator starts at zero.
  * Epilogue: at row p and column q, max (d p * (agg p q + h p q) + b q) 0.
-/
import proofs.«103099_j38268158607494_2_alg».proof.Proof.Gen.KernelIdeal.Skeleton
import proofs.«103099_j38268158607494_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- Whole-array matmul-and-scale: entry (r, q) is (sum over k of x r k * w k q) * d r. -/
def MS (x : FVec Ideal S100000x128 .f32) (w : FVec Ideal S128x128 .f32) (d : FVec Ideal S100000x1 .f32) :
    FVec Ideal S100000x128 .f32 :=
  fun i => (∑ k : Fin 128, x (ix2 (i 0) k) * w (ix2 k (i 1))) * d (ix2 (i 0) (0 : Fin 1))

/-- Whole-array epilogue: entry (r, q) is max (d r * (agg r q + h r q) + b q) 0. -/
def EP (agg h : FVec Ideal S100000x128 .f32) (d : FVec Ideal S100000x1 .f32) (b : FVec Ideal S1x128 .f32) :
    FVec Ideal S100000x128 .f32 :=
  fun i => max (d (ix2 (i 0) (0 : Fin 1)) * (agg i + h i) + b (ix2 (0 : Fin 1) (i 1))) (Ideal.ofBits .f32 0x00000000#32)

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into a zero accumulator, at row p and column q: the sum over the 128 contracted positions. -/
theorem matmul_at {φ₁ φ₂ : FTy} (a : FVec Ideal S5000x128 φ₁) (w : FVec Ideal S128x128 φ₂) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  show FloatOps.matmul _ none a w (constant (F := Ideal) S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact lhs_0 _ _
      | ⟨1, _⟩ => exact (lhs_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (rhs_0 _ _).trans hk
      | ⟨1, _⟩ => exact rhs_1 _ _)
  rw [el, er]

/-- The first matmul-and-scale body at (p, q). -/
theorem pay0_at (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [mulf_apply, matmul_at, shapeCast_self, broadcastTo_a1_ab_apply]
  rfl

/-- The second matmul-and-scale body at (p, q). -/
theorem pay2_at (x0 : Vec Ideal S5000x128 .f32) (x1 : Vec Ideal S128x128 .f32) (x2 : Vec Ideal S5000x1 .f32)
    (p : Fin 5000) (q : Fin 128) :
    k2_pay1 (F := Ideal) x0 x1 x2 (ix2 p q) = (∑ k : Fin 128, x0 (ix2 p k) * x1 (ix2 k q)) * x2 (ix2 p (0 : Fin 1)) := by
  unfold k2_pay1
  rw [mulf_apply, matmul_at, shapeCast_self, shapeCast_self, broadcastTo_a1_ab_apply]
  rfl

/-- The first epilogue body at (p, q). -/
theorem pay1_at (d : Vec Ideal S5000x1 .f32) (agg : Vec Ideal S5000x128 .f32) (h : Vec Ideal S5000x128 .f32)
    (b : Vec Ideal S1x128 .f32) (p : Fin 5000) (q : Fin 128) :
    k1_pay1 (F := Ideal) d agg h b (ix2 p q)
      = max (d (ix2 p (0 : Fin 1)) * (agg (ix2 p q) + h (ix2 p q)) + b (ix2 (0 : Fin 1) q)) (Ideal.ofBits .f32 0x00000000#32) := by
  unfold k1_pay1
  rw [maximumf_apply, addf_apply, mulf_apply, addf_apply, shapeCast_self, shapeCast_self, shapeCast_self, shapeCast_self,
    broadcastTo_a1_ab_apply, broadcastTo_1b_ab_apply]
  rfl

/-- The second epilogue body at (p, q). -/
theorem pay3_at (d : Vec Ideal S5000x1 .f32) (agg : Vec Ideal S5000x128 .f32) (h : Vec Ideal S5000x128 .f32)
    (b : Vec Ideal S1x128 .f32) (p : Fin 5000) (q : Fin 128) :
    k3_pay1 (F := Ideal) d agg h b (ix2 p q)
      = max (d (ix2 p (0 : Fin 1)) * (agg (ix2 p q) + h (ix2 p q)) + b (ix2 (0 : Fin 1) q)) (Ideal.ofBits .f32 0x00000000#32) := by
  unfold k3_pay1
  rw [maximumf_apply, addf_apply, mulf_apply, addf_apply, shapeCast_self, shapeCast_self, shapeCast_self, shapeCast_self,
    broadcastTo_a1_ab_apply, broadcastTo_1b_ab_apply]
  rfl

end Cert.KernelIdeal.Pay

end
-- ==== Proof.KerTerms.lean ====
/-
  The idealized kernel program's host operations, composed: what each intermediate array is as a function of the
  argument arrays.

  From the [2, 1600000] edge array: the source and destination rows as vectors; the degree of every node (one per
  incoming edge, accumulated at the destinations, plus one) and the column of its reciprocal roots. One layer is a
  matmul-and-scale launch (MS), the gather of the scaled rows at the edge sources (negative source numbers shifted up
  by the number of nodes first), their accumulation at the edge destinations, and an epilogue launch (EP) over the
  accumulated array, the scaled rows, the reciprocal-root column and the bias as a row. The program's result is the
  two layers' outputs side by side.
-/
import proofs.«103099_j38268158607494_2_alg».proof.Proof.KerPay

noncomputable section

namespace Cert.KernelIdeal.Terms

open Cert.KernelIdeal Cert.KernelIdeal.Gen Cert.KernelIdeal.Pay Idealize.ShloMosaic

/-- The edge sources as a vector. -/
def SRC (a1 : IVec S2x1600000 32) : IVec S1600000 32 :=
  shapeCast S1600000 (extractStridedSlice S1x1600000 ![0, 0] a1 slices_S2x1600000_S1x1600000_0_0) shapeCasts_S1x1600000_S1600000

/-- The edge destinations as a vector. -/
def DST (a1 : IVec S2x1600000 32) : IVec S1600000 32 :=
  shapeCast S1600000 (extractStridedSlice S1x1600000 ![1, 0] a1 slices_S2x1600000_S1x1600000_1_0) shapeCasts_S1x1600000_S1600000

/-- The degree vector: ones accumulated at the destinations into zeros, plus one. -/
def DEG (a1 : IVec S2x1600000 32) : FVec Ideal S100000 .f32 :=
  addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (DST a1))
      (broadcastInDim S1600000 ![] bcast_S_S1600000 (constant (F := Ideal) S_ .f32 0x3F800000#32)))
    (broadcastInDim S100000 ![] bcast_S_S100000 (constant (F := Ideal) S_ .f32 0x3F800000#32))

/-- The reciprocal roots of the degrees, as a column. -/
def DINV (a1 : IVec S2x1600000 32) : FVec Ideal S100000x1 .f32 :=
  shapeCast S100000x1 (Host.rsqrt (F := Ideal) (DEG a1)) shapeCasts_S100000_S100000x1

/-- The source numbers with the negative ones shifted up by the number of nodes, as a column. -/
def SRCW (a1 : IVec S2x1600000 32) : IVec S1600000x1 32 :=
  broadcastInDim S1600000x1 ![0] bcast_S1600000_S1600000x1_0
    (select (cmpi .slt (SRC a1) (broadcastInDim S1600000 ![] bcast_S_S1600000 (constantI S_ 32 0#32)))
      (addi (SRC a1) (broadcastInDim S1600000 ![] bcast_S_S1600000 (constantI S_ 32 100000#32))) (SRC a1))

/-- The rows of hp at the edge sources, accumulated at the edge destinations into zeros. -/
def AGG (a1 : IVec S2x1600000 32) (hp : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (DST a1))
    (Host.gather gather_S100000x128_S1600000x1_S1600000x128_1_0_n_n_0_1_1128 hp (SRCW a1))

/-- The bias as a row. -/
def BROW (b : FVec Ideal S128 .f32) : FVec Ideal S1x128 .f32 := shapeCast S1x128 b shapeCasts_S128_S1x128

/-- One layer: the epilogue over the accumulated scaled rows, the scaled rows, the reciprocal roots and the bias. -/
def LAYER (a1 : IVec S2x1600000 32) (x : FVec Ideal S100000x128 .f32) (w : FVec Ideal S128x128 .f32)
    (b : FVec Ideal S128 .f32) : FVec Ideal S100000x128 .f32 :=
  EP (AGG a1 (MS x w (DINV a1))) (MS x w (DINV a1)) (DINV a1) (BROW b)

/-- The result: the two layers side by side. -/
def OUT (a0 : FVec Ideal S100000x128 .f32) (a1 : IVec S2x1600000 32) (a2 : FVec Ideal S128x128 .f32)
    (a3 : FVec Ideal S128 .f32) (a4 : FVec Ideal S128x128 .f32) (a5 : FVec Ideal S128 .f32) : FVec Ideal S100000x256 .f32 :=
  concatenate S100000x256 1 [⟨S100000x128, LAYER a1 a0 a2 a3⟩, ⟨S100000x128, LAYER a1 (LAYER a1 a0 a2 a3) a4 a5⟩]
    concatenates_S100000x128_S100000x128_S100000x256_d1

end Cert.KernelIdeal.Terms

end
-- ==== Proof.KerReg0.lean ====
/-
  Region 0 (a matmul-and-scale launch) as one whole-array function.

  The grid has 20 points; point t holds rows 5000 t … 5000 t + 4999 of the feature array and of the scale column,
  the whole weight matrix, and writes back rows 5000 t … 5000 t + 4999 of the result. So what point t writes back is
  block t of the whole-array function MS of the three arrays as the region finds them, the 20 blocks tile the result
  array, and the array the region leaves is MS of its three operands.
-/
import proofs.«103099_j38268158607494_2_alg».proof.Proof.Gen.KernelIdeal.Frame
import proofs.«103099_j38268158607494_2_alg».proof.Proof.KerPay

set_option maxRecDepth 16384

noncomputable section

open scoped BigOperators

namespace Cert.KernelIdeal.Reg0

open Cert.KernelIdeal Cert.KernelIdeal.Gen Cert.KernelIdeal.Pay Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-blocked windows move with the point, the weight matrix
    stays, and the output's block row is the point's number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

set_option maxHeartbeats 1000000 in
/-- What point t writes back is block t of MS of the operand arrays. -/
theorem flushed_eq (c : Dev nD) (t : Fin cfg0.N) :
    (dat0 (F := Ideal) V c).flushed 3 t
      = ((cfg0.win 3).blk t).view.read (Elt Ideal)
          (MS (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e00, e01, e10, e11, e20, e21, e30, e31⟩ := idx_facts t
  have ht : t.val < 20 := by have h := t.isLt; have hN : cfg0.N = 20 := N_0; omega
  funext j
  obtain ⟨p, q, rfl⟩ : ∃ (p : Fin 5000) (q : Fin 128), j = ix2 p q := ⟨j 0, j 1, eq_ix2 j⟩
  have hp := p.isLt
  have hr : t.val * 5000 + p.val < 100000 := by omega
  refine (pay0_at (iblk0 V c 0 t) (iblk0 V c 1 t) (iblk0 V c 2 t) p q).trans ?_
  have h3 : ((cfg0.win 3).blk t).view.emb (ix2 p q) = ix2 (⟨t.val * 5000 + p.val, hr⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have h0 : ∀ k : Fin 128, ((cfg0.win 0).blk t).view.emb (ix2 p k) = ix2 (⟨t.val * 5000 + p.val, hr⟩ : Fin 100000) k := by
    intro k; funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, ((cfg0.win 1).blk t).view.emb (ix2 k q) = ix2 k q := by
    intro k; funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : ((cfg0.win 2).blk t).view.emb (ix2 p (0 : Fin 1)) = ix2 (⟨t.val * 5000 + p.val, hr⟩ : Fin 100000) (0 : Fin 1) := by
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  have g0 : ∀ k : Fin 128, iblk0 V c 0 t (ix2 p k) = V c (Pipeline.arrRef spec0 0) (ix2 (⟨t.val * 5000 + p.val, hr⟩ : Fin 100000) k) :=
    fun k => congrArg (V c (Pipeline.arrRef spec0 0)) (h0 k)
  have g1 : ∀ k : Fin 128, iblk0 V c 1 t (ix2 k q) = V c (Pipeline.arrRef spec0 1) (ix2 k q) :=
    fun k => congrArg (V c (Pipeline.arrRef spec0 1)) (h1 k)
  have g2 : iblk0 V c 2 t (ix2 p (0 : Fin 1)) = V c (Pipeline.arrRef spec0 2) (ix2 (⟨t.val * 5000 + p.val, hr⟩ : Fin 100000) (0 : Fin 1)) :=
    congrArg (V c (Pipeline.arrRef spec0 2)) h2
  have g3 : ((cfg0.win 3).blk t).view.read (Elt Ideal)
        (MS (V c (Pipeline.arrRef spec0 0)) (V c (Pipeline.arrRef spec0 1)) (V c (Pipeline.arrRef spec0 2))) (ix2 p q)
      = MS (V c (Pipeline.arrRef spec0 0)) (V c (Pipeline.arrRef spec0 1)) (V c (Pipeline.arrRef spec0 2))
          (ix2 (⟨t.val * 5000 + p.val, hr⟩ : Fin 100000) q) :=
    congrArg (MS (V c (Pipeline.arrRef spec0 0)) (V c (Pipeline.arrRef spec0 1)) (V c (Pipeline.arrRef spec0 2))) h3
  rw [g3, g2]
  simp only [g0, g1]
  rfl

/-- An index of the result array is in point t's block iff its row is among the block's 5000. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- Every index of the result array is in the block of the point numbered by its row divided by 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; omega⟩
  obtain ⟨-, -, -, -, -, -, e30, e31⟩ := idx_facts t
  have htv : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The array the region leaves: MS of its three operand arrays as the region finds them. -/
theorem final (c : Dev nD) :
    (dat0 (F := Ideal) V c).arrAt 3 cfg0.N
      = MS (V c (Pipeline.arrRef spec0 0)) (V c (Pipeline.arrRef spec0 1)) (V c (Pipeline.arrRef spec0 2)) :=
  (dat0 (F := Ideal) V c).arrAt_eq_of_cover 3 _ (fun t _ => flushed_eq V c t) cover

end Cert.KernelIdeal.Reg0

end
-- ==== Proof.KerReg1.lean ====
/-
  Region 1 (an epilogue launch) as one whole-array function.

  The grid has 20 points; point t holds rows 5000 t … 5000 t + 4999 of the aggregated array, of the scaled
  features and of the scale column, the whole bias row, and writes back rows 5000 t … 5000 t + 4999 of the result.
  What point t writes back is block t of the whole-array function EP of the four arrays as the region finds them,
  the 20 blocks tile the result array, and the array the region leaves is EP of its four operands.
-/
import proofs.«103099_j38268158607494_2_alg».proof.Proof.Gen.KernelIdeal.Frame
import proofs.«103099_j38268158607494_2_alg».proof.Proof.KerPay

set_option maxRecDepth 16384

noncomputable section

open scoped BigOperators

namespace Cert.KernelIdeal.Reg1

open Cert.KernelIdeal Cert.KernelIdeal.Gen Cert.KernelIdeal.Pay Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-blocked windows move with the point, the bias row stays,
    and the output's block row is the point's number. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 1000000 in
/-- What point t writes back is block t of EP of the operand arrays. -/
theorem flushed_eq (c : Dev nD) (t : Fin cfg1.N) :
    (dat1 (F := Ideal) V c).flushed 4 t
      = ((cfg1.win 4).blk t).view.read (Elt Ideal)
          (EP (V c (Pipeline.arrRef spec1 0)) (V c (Pipeline.arrRef spec1 1)) (V c (Pipeline.arrRef spec1 2))
            (V c (Pipeline.arrRef spec1 3))) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz, View.ld_unit_zero (S := S5000x1) hz]
  obtain ⟨e00, e01, e10, e11, e20, e21, e30, e31, e40, e41⟩ := idx_facts t
  have ht : t.val < 20 := by have h := t.isLt; have hN : cfg1.N = 20 := N_1; omega
  funext j
  obtain ⟨p, q, rfl⟩ : ∃ (p : Fin 5000) (q : Fin 128), j = ix2 p q := ⟨j 0, j 1, eq_ix2 j⟩
  have hp := p.isLt
  have hr : t.val * 5000 + p.val < 100000 := by omega
  refine (pay1_at (iblk1 V c 2 t) (iblk1 V c 0 t) (iblk1 V c 1 t) (iblk1 V c 3 t) p q).trans ?_
  have h4 : ((cfg1.win 4).blk t).view.emb (ix2 p q) = ix2 (⟨t.val * 5000 + p.val, hr⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  have h0 : ((cfg1.win 0).blk t).view.emb (ix2 p q) = ix2 (⟨t.val * 5000 + p.val, hr⟩ : Fin 100000) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : ((cfg1.win 1).blk t).view.emb (ix2 p q) = ix2 (⟨t.val * 5000 + p.val, hr⟩ : Fin 100000) q := by
    funext a; apply Fin.ext
    match a with
    | ⟨0, _⟩ => show win1_1.index t (0 : Fin 2) * 5000 + 1 * p.val = t.val * 5000 + p.val; omega
    | ⟨1, _⟩ => show win1_1.index t (1 : Fin 2) * 128 + 1 * q.val = q.val; omega
  have h2 : ((cfg1.win 2).blk t).view.emb (ix2 p (0 : Fin 1)) = ix2 (⟨t.val * 5000 + p.val, hr⟩ : Fin 100000) (0 : Fin 1) := by
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have g0 : iblk1 V c 0 t (ix2 p q) = V c (Pipeline.arrRef spec1 0) (ix2 (⟨t.val * 5000 + p.val, hr⟩ : Fin 100000) q) :=
    congrArg (V c (Pipeline.arrRef spec1 0)) h0
  have g1 : iblk1 V c 1 t (ix2 p q) = V c (Pipeline.arrRef spec1 1) (ix2 (⟨t.val * 5000 + p.val, hr⟩ : Fin 100000) q) :=
    congrArg (V c (Pipeline.arrRef spec1 1)) h1
  have g2 : iblk1 V c 2 t (ix2 p (0 : Fin 1)) = V c (Pipeline.arrRef spec1 2) (ix2 (⟨t.val * 5000 + p.val, hr⟩ : Fin 100000) (0 : Fin 1)) :=
    congrArg (V c (Pipeline.arrRef spec1 2)) h2
  have g3 : iblk1 V c 3 t (ix2 (0 : Fin 1) q) = V c (Pipeline.arrRef spec1 3) (ix2 (0 : Fin 1) q) :=
    congrArg (V c (Pipeline.arrRef spec1 3)) h3
  have g4 : ((cfg1.win 4).blk t).view.read (Elt Ideal)
        (EP (V c (Pipeline.arrRef spec1 0)) (V c (Pipeline.arrRef spec1 1)) (V c (Pipeline.arrRef spec1 2))
          (V c (Pipeline.arrRef spec1 3))) (ix2 p q)
      = EP (V c (Pipeline.arrRef spec1 0)) (V c (Pipeline.arrRef spec1 1)) (V c (Pipeline.arrRef spec1 2))
          (V c (Pipeline.arrRef spec1 3)) (ix2 (⟨t.val * 5000 + p.val, hr⟩ : Fin 100000) q) :=
    congrArg (EP (V c (Pipeline.arrRef spec1 0)) (V c (Pipeline.arrRef spec1 1)) (V c (Pipeline.arrRef spec1 2))
      (V c (Pipeline.arrRef spec1 3))) h4
  rw [g4, g3, g2, g1, g0]
  rfl

/-- An index of the result array is in point t's block iff its row is among the block's 5000. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v24).slice (win1_4.rect t)).set ↔ _
  rw [View.set_slice_whole, Rect.mem_set_unit]
  exact Iff.rfl

/-- Every index of the result array is in the block of the point numbered by its row divided by 5000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; omega⟩
  obtain ⟨-, -, -, -, -, -, -, -, e40, e41⟩ := idx_facts t
  have htv : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The array the region leaves: EP of its four operand arrays as the region finds them. -/
theorem final (c : Dev nD) :
    (dat1 (F := Ideal) V c).arrAt 4 cfg1.N
      = EP (V c (Pipeline.arrRef spec1 0)) (V c (Pipeline.arrRef spec1 1)) (V c (Pipeline.arrRef spec1 2))
          (V c (Pipeline.arrRef spec1 3)) :=
  (dat1 (F := Ideal) V c).arrAt_eq_of_cover 4 _ (fun t _ => flushed_eq V c t) cover

end Cert.KernelIdeal.Reg1

end
-- ==== Proof.KerReg2.lean ====
/-
  Region 2 (a matmul-and-scale launch) as one whole-array function.

  The grid has 20 points; point t holds rows 5000 t … 5000 t + 4999 of the feature array and of the scale column,
  the whole weight matrix, and writes back rows 5000 t … 5000 t + 4999 of the result. So what point t writes back is
  block t of the whole-array function MS of the three arrays as the region finds them, the 20 blocks tile the result
  array, and the array the region leaves is MS of its three operands.
-/
import proofs.«103099_j38268158607494_2_alg».proof.Proof.Gen.KernelIdeal.Frame
import proofs.«103099_j38268158607494_2_alg».proof.Proof.KerPay

set_option maxRecDepth 16384

noncomputable section

open scoped BigOperators

namespace Cert.KernelIdeal.Reg2

open Cert.KernelIdeal Cert.KernelIdeal.Gen Cert.KernelIdeal.Pay Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-blocked windows move with the point, the weight matrix
    stays, and the output's block row is the point's number. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

set_option maxHeartbeats 1000000 in
/-- What point t writes back is block t of MS of the operand arrays. -/
theorem flushed_eq (c : Dev nD) (t : Fin cfg2.N) :
    (dat2 (F := Ideal) V c).flushed 3 t
      = ((cfg2.win 3).blk t).view.read (Elt Ideal)
          (MS (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  obtain ⟨e00, e01, e10, e11, e20, e21, e30, e31⟩ := idx_facts t
  have ht : t.val < 20 := by have h := t.isLt; have hN : cfg2.N = 20 := N_2; omega
  funext j
  obtain ⟨p, q, rfl⟩ : ∃ (p : Fin 5000) (q : Fin 128), j = ix2 p q := ⟨j 0, j 1, eq_ix2 j⟩
  have hp := p.isLt
  have hr : t.val * 5000 + p.val < 100000 := by omega
  refine (pay2_at (iblk2 V c 0 t) (iblk2 V c 1 t) (iblk2 V c 2 t) p q).trans ?_
  have h3 : ((cfg2.win 3).blk t).view.emb (ix2 p q) = ix2 (⟨t.val * 5000 + p.val, hr⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  have h0 : ∀ k : Fin 128, ((cfg2.win 0).blk t).view.emb (ix2 p k) = ix2 (⟨t.val * 5000 + p.val, hr⟩ : Fin 100000) k := by
    intro k; funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, ((cfg2.win 1).blk t).view.emb (ix2 k q) = ix2 k q := by
    intro k; funext a; apply Fin.ext
    match a with
    | ⟨0, _⟩ => show win2_1.index t (0 : Fin 2) * 128 + 1 * k.val = k.val; omega
    | ⟨1, _⟩ => show win2_1.index t (1 : Fin 2) * 128 + 1 * q.val = q.val; omega
  have h2 : ((cfg2.win 2).blk t).view.emb (ix2 p (0 : Fin 1)) = ix2 (⟨t.val * 5000 + p.val, hr⟩ : Fin 100000) (0 : Fin 1) := by
    funext a; apply Fin.ext
    match a with
    | ⟨0, _⟩ => show win2_2.index t (0 : Fin 2) * 5000 + 1 * p.val = t.val * 5000 + p.val; omega
    | ⟨1, _⟩ => show win2_2.index t (1 : Fin 2) * 1 + 1 * 0 = 0; omega
  have g0 : ∀ k : Fin 128, iblk2 V c 0 t (ix2 p k) = V c (Pipeline.arrRef spec2 0) (ix2 (⟨t.val * 5000 + p.val, hr⟩ : Fin 100000) k) :=
    fun k => congrArg (V c (Pipeline.arrRef spec2 0)) (h0 k)
  have g1 : ∀ k : Fin 128, iblk2 V c 1 t (ix2 k q) = V c (Pipeline.arrRef spec2 1) (ix2 k q) :=
    fun k => congrArg (V c (Pipeline.arrRef spec2 1)) (h1 k)
  have g2 : iblk2 V c 2 t (ix2 p (0 : Fin 1)) = V c (Pipeline.arrRef spec2 2) (ix2 (⟨t.val * 5000 + p.val, hr⟩ : Fin 100000) (0 : Fin 1)) :=
    congrArg (V c (Pipeline.arrRef spec2 2)) h2
  have g3 : ((cfg2.win 3).blk t).view.read (Elt Ideal)
        (MS (V c (Pipeline.arrRef spec2 0)) (V c (Pipeline.arrRef spec2 1)) (V c (Pipeline.arrRef spec2 2))) (ix2 p q)
      = MS (V c (Pipeline.arrRef spec2 0)) (V c (Pipeline.arrRef spec2 1)) (V c (Pipeline.arrRef spec2 2))
          (ix2 (⟨t.val * 5000 + p.val, hr⟩ : Fin 100000) q) :=
    congrArg (MS (V c (Pipeline.arrRef spec2 0)) (V c (Pipeline.arrRef spec2 1)) (V c (Pipeline.arrRef spec2 2))) h3
  rw [g3, g2]
  simp only [g0, g1]
  rfl

/-- An index of the result array is in point t's block iff its row is among the block's 5000. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v25).slice (win2_3.rect t)).set ↔ _
  rw [View.set_slice_whole, Rect.mem_set_unit]
  exact Iff.rfl

/-- Every index of the result array is in the block of the point numbered by its row divided by 5000. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : grid2.N = 20 := N_2
  let t : Fin cfg2.N := ⟨(i 0).val / 5000, by show (i 0).val / 5000 < grid2.N; omega⟩
  obtain ⟨-, -, -, -, -, -, e30, e31⟩ := idx_facts t
  have htv : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The array the region leaves: MS of its three operand arrays as the region finds them. -/
theorem final (c : Dev nD) :
    (dat2 (F := Ideal) V c).arrAt 3 cfg2.N
      = MS (V c (Pipeline.arrRef spec2 0)) (V c (Pipeline.arrRef spec2 1)) (V c (Pipeline.arrRef spec2 2)) :=
  (dat2 (F := Ideal) V c).arrAt_eq_of_cover 3 _ (fun t _ => flushed_eq V c t) cover

end Cert.KernelIdeal.Reg2

end
-- ==== Proof.KerReg3.lean ====
/-
  Region 3 (an epilogue launch) as one whole-array function.

  The grid has 20 points; point t holds rows 5000 t … 5000 t + 4999 of the aggregated array, of the scaled
  features and of the scale column, the whole bias row, and writes back rows 5000 t … 5000 t + 4999 of the result.
  What point t writes back is block t of the whole-array function EP of the four arrays as the region finds them,
  the 20 blocks tile the result array, and the array the region leaves is EP of its four operands.
-/
import proofs.«103099_j38268158607494_2_alg».proof.Proof.Gen.KernelIdeal.Frame
import proofs.«103099_j38268158607494_2_alg».proof.Proof.KerPay

set_option maxRecDepth 16384

noncomputable section

open scoped BigOperators

namespace Cert.KernelIdeal.Reg3

open Cert.KernelIdeal Cert.KernelIdeal.Gen Cert.KernelIdeal.Pay Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-blocked windows move with the point, the bias row stays,
    and the output's block row is the point's number. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 1000000 in
/-- What point t writes back is block t of EP of the operand arrays. -/
theorem flushed_eq (c : Dev nD) (t : Fin cfg3.N) :
    (dat3 (F := Ideal) V c).flushed 4 t
      = ((cfg3.win 4).blk t).view.read (Elt Ideal)
          (EP (V c (Pipeline.arrRef spec3 0)) (V c (Pipeline.arrRef spec3 1)) (V c (Pipeline.arrRef spec3 2))
            (V c (Pipeline.arrRef spec3 3))) := by
  show (cfg3.win 4).cut (grid3.coords t) ((dat3 V c).after 4 t) = _
  rw [after3_4]
  unfold out3_4
  rw [View.canon_unit_zero hz]
  simp only [View.ld_unit_zero (S := S5000x128) hz, View.ld_unit_zero (S := S1x128) hz, View.ld_unit_zero (S := S5000x1) hz]
  obtain ⟨e00, e01, e10, e11, e20, e21, e30, e31, e40, e41⟩ := idx_facts t
  have ht : t.val < 20 := by have h := t.isLt; have hN : cfg3.N = 20 := N_3; omega
  funext j
  obtain ⟨p, q, rfl⟩ : ∃ (p : Fin 5000) (q : Fin 128), j = ix2 p q := ⟨j 0, j 1, eq_ix2 j⟩
  have hp := p.isLt
  have hr : t.val * 5000 + p.val < 100000 := by omega
  refine (pay3_at (iblk3 V c 2 t) (iblk3 V c 0 t) (iblk3 V c 1 t) (iblk3 V c 3 t) p q).trans ?_
  have h4 : ((cfg3.win 4).blk t).view.emb (ix2 p q) = ix2 (⟨t.val * 5000 + p.val, hr⟩ : Fin 100000) q := by
    funext a; apply Fin.ext
    match a with
    | ⟨0, _⟩ => show win3_4.index t (0 : Fin 2) * 5000 + 1 * p.val = t.val * 5000 + p.val; omega
    | ⟨1, _⟩ => show win3_4.index t (1 : Fin 2) * 128 + 1 * q.val = q.val; omega
  have h0 : ((cfg3.win 0).blk t).view.emb (ix2 p q) = ix2 (⟨t.val * 5000 + p.val, hr⟩ : Fin 100000) q := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have h1 : ((cfg3.win 1).blk t).view.emb (ix2 p q) = ix2 (⟨t.val * 5000 + p.val, hr⟩ : Fin 100000) q := by
    funext a; apply Fin.ext
    match a with
    | ⟨0, _⟩ => show win3_1.index t (0 : Fin 2) * 5000 + 1 * p.val = t.val * 5000 + p.val; omega
    | ⟨1, _⟩ => show win3_1.index t (1 : Fin 2) * 128 + 1 * q.val = q.val; omega
  have h2 : ((cfg3.win 2).blk t).view.emb (ix2 p (0 : Fin 1)) = ix2 (⟨t.val * 5000 + p.val, hr⟩ : Fin 100000) (0 : Fin 1) := by
    funext a; apply Fin.ext
    match a with
    | ⟨0, _⟩ => show win3_2.index t (0 : Fin 2) * 5000 + 1 * p.val = t.val * 5000 + p.val; omega
    | ⟨1, _⟩ => show win3_2.index t (1 : Fin 2) * 1 + 1 * 0 = 0; omega
  have h3 : ((cfg3.win 3).blk t).view.emb (ix2 (0 : Fin 1) q) = ix2 (0 : Fin 1) q := by
    funext a; apply Fin.ext
    match a with
    | ⟨0, _⟩ => show win3_3.index t (0 : Fin 2) * 1 + 1 * 0 = 0; omega
    | ⟨1, _⟩ => show win3_3.index t (1 : Fin 2) * 128 + 1 * q.val = q.val; omega
  have g0 : iblk3 V c 0 t (ix2 p q) = V c (Pipeline.arrRef spec3 0) (ix2 (⟨t.val * 5000 + p.val, hr⟩ : Fin 100000) q) :=
    congrArg (V c (Pipeline.arrRef spec3 0)) h0
  have g1 : iblk3 V c 1 t (ix2 p q) = V c (Pipeline.arrRef spec3 1) (ix2 (⟨t.val * 5000 + p.val, hr⟩ : Fin 100000) q) :=
    congrArg (V c (Pipeline.arrRef spec3 1)) h1
  have g2 : iblk3 V c 2 t (ix2 p (0 : Fin 1)) = V c (Pipeline.arrRef spec3 2) (ix2 (⟨t.val * 5000 + p.val, hr⟩ : Fin 100000) (0 : Fin 1)) :=
    congrArg (V c (Pipeline.arrRef spec3 2)) h2
  have g3 : iblk3 V c 3 t (ix2 (0 : Fin 1) q) = V c (Pipeline.arrRef spec3 3) (ix2 (0 : Fin 1) q) :=
    congrArg (V c (Pipeline.arrRef spec3 3)) h3
  have g4 : ((cfg3.win 4).blk t).view.read (Elt Ideal)
        (EP (V c (Pipeline.arrRef spec3 0)) (V c (Pipeline.arrRef spec3 1)) (V c (Pipeline.arrRef spec3 2))
          (V c (Pipeline.arrRef spec3 3))) (ix2 p q)
      = EP (V c (Pipeline.arrRef spec3 0)) (V c (Pipeline.arrRef spec3 1)) (V c (Pipeline.arrRef spec3 2))
          (V c (Pipeline.arrRef spec3 3)) (ix2 (⟨t.val * 5000 + p.val, hr⟩ : Fin 100000) q) :=
    congrArg (EP (V c (Pipeline.arrRef spec3 0)) (V c (Pipeline.arrRef spec3 1)) (V c (Pipeline.arrRef spec3 2))
      (V c (Pipeline.arrRef spec3 3))) h4
  rw [g4, g3, g2, g1, g0]
  rfl

/-- An index of the result array is in point t's block iff its row is among the block's 5000. -/
theorem mem_blk (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v37).slice (win3_4.rect t)).set ↔ _
  rw [View.set_slice_whole, Rect.mem_set_unit]
  exact Iff.rfl

/-- Every index of the result array is in the block of the point numbered by its row divided by 5000. -/
theorem cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 20 := N_3
  let t : Fin cfg3.N := ⟨(i 0).val / 5000, by show (i 0).val / 5000 < grid3.N; omega⟩
  obtain ⟨-, -, -, -, -, -, -, -, e40, e41⟩ := idx_facts t
  have htv : t.val = (i 0).val / 5000 := rfl
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The array the region leaves: EP of its four operand arrays as the region finds them. -/
theorem final (c : Dev nD) :
    (dat3 (F := Ideal) V c).arrAt 4 cfg3.N
      = EP (V c (Pipeline.arrRef spec3 0)) (V c (Pipeline.arrRef spec3 1)) (V c (Pipeline.arrRef spec3 2))
          (V c (Pipeline.arrRef spec3 3)) :=
  (dat3 (F := Ideal) V c).arrAt_eq_of_cover 4 _ (fun t _ => flushed_eq V c t) cover

end Cert.KernelIdeal.Reg3

end
-- ==== Proof.KerChain.lean ====
/-
  The result buffer of the idealized kernel program at the end of the run, as the composed term of the argument
  arrays: the fold through @main's eight segments walked back from the last boundary to the launch memory.

  A host stretch rewrites the buffers its operations write and leaves the others; a launch rewrites its result array
  with what its points write back (the region's whole-array function of its operands, as the region finds them) and
  leaves everything else. Walking the fold back, each buffer an operation or a launch reads is found at the boundary
  where it was last written.
-/
import proofs.«103099_j38268158607494_2_alg».proof.Proof.Gen.KernelIdeal.Frame
import proofs.«103099_j38268158607494_2_alg».proof.Proof.KerTerms
import proofs.«103099_j38268158607494_2_alg».proof.Proof.KerReg0
import proofs.«103099_j38268158607494_2_alg».proof.Proof.KerReg1
import proofs.«103099_j38268158607494_2_alg».proof.Proof.KerReg2
import proofs.«103099_j38268158607494_2_alg».proof.Proof.KerReg3
import Idealize.ShloMosaic.Lib.StableHlo.Run

set_option maxRecDepth 16384

noncomputable section

namespace Cert.KernelIdeal.Chain

open Cert.KernelIdeal Cert.KernelIdeal.Gen Cert.KernelIdeal.Pay Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a host stretch writes keeps its contents through the stretch. -/
macro "not_written" : tactic =>
  `(tactic| (refine StableHlo.after_of_forall_not_mem _ _ (List.forall_iff_forall_mem.mp ?_)
             simp only [hostOps0, hostOps1, hostOps3, hostOps4, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## After the first host stretch -/

theorem w1_arg0 : W1 m ρ c (Proc.devRef .tc main_arg0) = m ((c : Thread nD τ).loc main_arg0) := by
  show StableHlo.after hostOps0 (W0 m ρ c) (Proc.devRef .tc main_arg0) = _
  refine Eq.trans ?_ (rfl : W0 m ρ c (Proc.devRef .tc main_arg0) = _)
  not_written
theorem w1_arg2 : W1 m ρ c (Proc.devRef .tc main_arg2) = m ((c : Thread nD τ).loc main_arg2) := by
  show StableHlo.after hostOps0 (W0 m ρ c) (Proc.devRef .tc main_arg2) = _
  refine Eq.trans ?_ (rfl : W0 m ρ c (Proc.devRef .tc main_arg2) = _)
  not_written
theorem w1_arg3 : W1 m ρ c (Proc.devRef .tc main_arg3) = m ((c : Thread nD τ).loc main_arg3) := by
  show StableHlo.after hostOps0 (W0 m ρ c) (Proc.devRef .tc main_arg3) = _
  refine Eq.trans ?_ (rfl : W0 m ρ c (Proc.devRef .tc main_arg3) = _)
  not_written
theorem w1_arg4 : W1 m ρ c (Proc.devRef .tc main_arg4) = m ((c : Thread nD τ).loc main_arg4) := by
  show StableHlo.after hostOps0 (W0 m ρ c) (Proc.devRef .tc main_arg4) = _
  refine Eq.trans ?_ (rfl : W0 m ρ c (Proc.devRef .tc main_arg4) = _)
  not_written
theorem w1_arg5 : W1 m ρ c (Proc.devRef .tc main_arg5) = m ((c : Thread nD τ).loc main_arg5) := by
  show StableHlo.after hostOps0 (W0 m ρ c) (Proc.devRef .tc main_arg5) = _
  refine Eq.trans ?_ (rfl : W0 m ρ c (Proc.devRef .tc main_arg5) = _)
  not_written

theorem w1_v1 : (W1 m ρ c (Proc.devRef .tc main_v1) : IVec S1600000 32) = SRC (m ((c : Thread nD τ).loc main_arg1)) := by
  show StableHlo.after hostOps0 (W0 m ρ c) (Proc.devRef .tc main_v1) = _
  after_results
  rfl
theorem w1_v3 : (W1 m ρ c (Proc.devRef .tc main_v3) : IVec S1600000 32) = DST (m ((c : Thread nD τ).loc main_arg1)) := by
  show StableHlo.after hostOps0 (W0 m ρ c) (Proc.devRef .tc main_v3) = _
  after_results
  rfl
theorem w1_v11 : (W1 m ρ c (Proc.devRef .tc main_v11) : FVec Ideal S100000x1 .f32) = DINV (m ((c : Thread nD τ).loc main_arg1)) := by
  show StableHlo.after hostOps0 (W0 m ρ c) (Proc.devRef .tc main_v11) = _
  after_results
  rfl

/-! ## Through the first matmul-and-scale launch -/

theorem w2_v12 : (W2 m ρ c (Proc.devRef .tc main_v12) : FVec Ideal S100000x128 .f32)
    = MS (m ((c : Thread nD τ).loc main_arg0)) (m ((c : Thread nD τ).loc main_arg2)) (DINV (m ((c : Thread nD τ).loc main_arg1))) := by
  refine (W2_arr m ρ c 3).trans ?_
  rw [Reg0.final (V1 m ρ) c]
  show MS (W1 m ρ c (Proc.devRef .tc main_arg0)) (W1 m ρ c (Proc.devRef .tc main_arg2)) (W1 m ρ c (Proc.devRef .tc main_v11)) = _
  rw [w1_arg0, w1_arg2, w1_v11]
theorem w2_v11 : (W2 m ρ c (Proc.devRef .tc main_v11) : FVec Ideal S100000x1 .f32) = DINV (m ((c : Thread nD τ).loc main_arg1)) :=
  ((W2_arr m ρ c 2).trans (((dat0 (V1 m ρ) c).arrAt_in 2 rfl _).trans (A_eq0 (V1 m ρ) c 2))).trans (w1_v11 m ρ c)
theorem w2_v1 : (W2 m ρ c (Proc.devRef .tc main_v1) : IVec S1600000 32) = SRC (m ((c : Thread nD τ).loc main_arg1)) :=
  (W2_of_ne m ρ c main_v1 (by decide)).trans (w1_v1 m ρ c)
theorem w2_v3 : (W2 m ρ c (Proc.devRef .tc main_v3) : IVec S1600000 32) = DST (m ((c : Thread nD τ).loc main_arg1)) :=
  (W2_of_ne m ρ c main_v3 (by decide)).trans (w1_v3 m ρ c)
theorem w2_arg3 : W2 m ρ c (Proc.devRef .tc main_arg3) = (m ((c : Thread nD τ).loc main_arg3)) :=
  (W2_of_ne m ρ c main_arg3 (by decide)).trans (w1_arg3 m ρ c)
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)

/-! ## After the second host stretch -/

theorem w3_v22 : (W3 m ρ c (Proc.devRef .tc main_v22) : FVec Ideal S100000x128 .f32)
    = AGG (m ((c : Thread nD τ).loc main_arg1)) (MS (m ((c : Thread nD τ).loc main_arg0)) (m ((c : Thread nD τ).loc main_arg2)) (DINV (m ((c : Thread nD τ).loc main_arg1)))) := by
  show StableHlo.after hostOps1 (W2 m ρ c) (Proc.devRef .tc main_v22) = _
  after_results
  rw [w2_v1, w2_v3, w2_v12]
  rfl
theorem w3_v23 : (W3 m ρ c (Proc.devRef .tc main_v23) : FVec Ideal S1x128 .f32) = BROW (m ((c : Thread nD τ).loc main_arg3)) := by
  show StableHlo.after hostOps1 (W2 m ρ c) (Proc.devRef .tc main_v23) = _
  after_results
  rw [w2_arg3]
  rfl
theorem w3_v12 : (W3 m ρ c (Proc.devRef .tc main_v12) : FVec Ideal S100000x128 .f32)
    = MS (m ((c : Thread nD τ).loc main_arg0)) (m ((c : Thread nD τ).loc main_arg2)) (DINV (m ((c : Thread nD τ).loc main_arg1))) := by
  refine Eq.trans ?_ (w2_v12 m ρ c)
  show StableHlo.after hostOps1 (W2 m ρ c) (Proc.devRef .tc main_v12) = _
  not_written
theorem w3_v11 : (W3 m ρ c (Proc.devRef .tc main_v11) : FVec Ideal S100000x1 .f32) = DINV (m ((c : Thread nD τ).loc main_arg1)) := by
  refine Eq.trans ?_ (w2_v11 m ρ c)
  show StableHlo.after hostOps1 (W2 m ρ c) (Proc.devRef .tc main_v11) = _
  not_written
theorem w3_v1 : (W3 m ρ c (Proc.devRef .tc main_v1) : IVec S1600000 32) = SRC (m ((c : Thread nD τ).loc main_arg1)) := by
  refine Eq.trans ?_ (w2_v1 m ρ c)
  show StableHlo.after hostOps1 (W2 m ρ c) (Proc.devRef .tc main_v1) = _
  not_written
theorem w3_v3 : (W3 m ρ c (Proc.devRef .tc main_v3) : IVec S1600000 32) = DST (m ((c : Thread nD τ).loc main_arg1)) := by
  refine Eq.trans ?_ (w2_v3 m ρ c)
  show StableHlo.after hostOps1 (W2 m ρ c) (Proc.devRef .tc main_v3) = _
  not_written
theorem w3_arg4 : W3 m ρ c (Proc.devRef .tc main_arg4) = (m ((c : Thread nD τ).loc main_arg4)) := by
  refine Eq.trans ?_ (w2_arg4 m ρ c)
  show StableHlo.after hostOps1 (W2 m ρ c) (Proc.devRef .tc main_arg4) = _
  not_written
theorem w3_arg5 : W3 m ρ c (Proc.devRef .tc main_arg5) = (m ((c : Thread nD τ).loc main_arg5)) := by
  refine Eq.trans ?_ (w2_arg5 m ρ c)
  show StableHlo.after hostOps1 (W2 m ρ c) (Proc.devRef .tc main_arg5) = _
  not_written

/-! ## Through the first epilogue launch -/

theorem w4_v24 : (W4 m ρ c (Proc.devRef .tc main_v24) : FVec Ideal S100000x128 .f32)
    = LAYER (m ((c : Thread nD τ).loc main_arg1)) (m ((c : Thread nD τ).loc main_arg0)) (m ((c : Thread nD τ).loc main_arg2)) (m ((c : Thread nD τ).loc main_arg3)) := by
  refine (W4_arr m ρ c 4).trans ?_
  rw [Reg1.final (V3 m ρ) c]
  show EP (W3 m ρ c (Proc.devRef .tc main_v22)) (W3 m ρ c (Proc.devRef .tc main_v12)) (W3 m ρ c (Proc.devRef .tc main_v11))
    (W3 m ρ c (Proc.devRef .tc main_v23)) = _
  rw [w3_v22, w3_v12, w3_v11, w3_v23]
  rfl
theorem w4_v11 : (W4 m ρ c (Proc.devRef .tc main_v11) : FVec Ideal S100000x1 .f32) = DINV (m ((c : Thread nD τ).loc main_arg1)) :=
  ((W4_arr m ρ c 2).trans (((dat1 (V3 m ρ) c).arrAt_in 2 rfl _).trans (A_eq1 (V3 m ρ) c 2))).trans (w3_v11 m ρ c)
theorem w4_v1 : (W4 m ρ c (Proc.devRef .tc main_v1) : IVec S1600000 32) = SRC (m ((c : Thread nD τ).loc main_arg1)) :=
  (W4_of_ne m ρ c main_v1 (by decide)).trans (w3_v1 m ρ c)
theorem w4_v3 : (W4 m ρ c (Proc.devRef .tc main_v3) : IVec S1600000 32) = DST (m ((c : Thread nD τ).loc main_arg1)) :=
  (W4_of_ne m ρ c main_v3 (by decide)).trans (w3_v3 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)

/-! ## Through the second matmul-and-scale launch -/

theorem w5_v25 : (W5 m ρ c (Proc.devRef .tc main_v25) : FVec Ideal S100000x128 .f32)
    = MS (LAYER (m ((c : Thread nD τ).loc main_arg1)) (m ((c : Thread nD τ).loc main_arg0)) (m ((c : Thread nD τ).loc main_arg2)) (m ((c : Thread nD τ).loc main_arg3))) (m ((c : Thread nD τ).loc main_arg4)) (DINV (m ((c : Thread nD τ).loc main_arg1))) := by
  refine (W5_arr m ρ c 3).trans ?_
  rw [Reg2.final (V4 m ρ) c]
  show MS (W4 m ρ c (Proc.devRef .tc main_v24)) (W4 m ρ c (Proc.devRef .tc main_arg4)) (W4 m ρ c (Proc.devRef .tc main_v11)) = _
  rw [w4_v24, w4_arg4, w4_v11]
theorem w5_v24 : (W5 m ρ c (Proc.devRef .tc main_v24) : FVec Ideal S100000x128 .f32)
    = LAYER (m ((c : Thread nD τ).loc main_arg1)) (m ((c : Thread nD τ).loc main_arg0)) (m ((c : Thread nD τ).loc main_arg2)) (m ((c : Thread nD τ).loc main_arg3)) :=
  ((W5_arr m ρ c 0).trans (((dat2 (V4 m ρ) c).arrAt_in 0 rfl _).trans (A_eq2 (V4 m ρ) c 0))).trans (w4_v24 m ρ c)
theorem w5_v11 : (W5 m ρ c (Proc.devRef .tc main_v11) : FVec Ideal S100000x1 .f32) = DINV (m ((c : Thread nD τ).loc main_arg1)) :=
  ((W5_arr m ρ c 2).trans (((dat2 (V4 m ρ) c).arrAt_in 2 rfl _).trans (A_eq2 (V4 m ρ) c 2))).trans (w4_v11 m ρ c)
theorem w5_v1 : (W5 m ρ c (Proc.devRef .tc main_v1) : IVec S1600000 32) = SRC (m ((c : Thread nD τ).loc main_arg1)) :=
  (W5_of_ne m ρ c main_v1 (by decide)).trans (w4_v1 m ρ c)
theorem w5_v3 : (W5 m ρ c (Proc.devRef .tc main_v3) : IVec S1600000 32) = DST (m ((c : Thread nD τ).loc main_arg1)) :=
  (W5_of_ne m ρ c main_v3 (by decide)).trans (w4_v3 m ρ c)
theorem w5_arg5 : W5 m ρ c (Proc.devRef .tc main_arg5) = (m ((c : Thread nD τ).loc main_arg5)) :=
  (W5_of_ne m ρ c main_arg5 (by decide)).trans (w4_arg5 m ρ c)

/-! ## After the third host stretch -/

set_option maxHeartbeats 2000000 in
theorem w6_v35 : (W6 m ρ c (Proc.devRef .tc main_v35) : FVec Ideal S100000x128 .f32)
    = AGG (m ((c : Thread nD τ).loc main_arg1)) (MS (LAYER (m ((c : Thread nD τ).loc main_arg1)) (m ((c : Thread nD τ).loc main_arg0)) (m ((c : Thread nD τ).loc main_arg2)) (m ((c : Thread nD τ).loc main_arg3))) (m ((c : Thread nD τ).loc main_arg4)) (DINV (m ((c : Thread nD τ).loc main_arg1)))) := by
  show StableHlo.after hostOps3 (W5 m ρ c) (Proc.devRef .tc main_v35) = _
  after_results
  rw [w5_v1, w5_v3, w5_v25]
  rfl
theorem w6_v36 : (W6 m ρ c (Proc.devRef .tc main_v36) : FVec Ideal S1x128 .f32) = BROW (m ((c : Thread nD τ).loc main_arg5)) := by
  show StableHlo.after hostOps3 (W5 m ρ c) (Proc.devRef .tc main_v36) = _
  after_results
  rw [w5_arg5]
  rfl
theorem w6_v25 : (W6 m ρ c (Proc.devRef .tc main_v25) : FVec Ideal S100000x128 .f32)
    = MS (LAYER (m ((c : Thread nD τ).loc main_arg1)) (m ((c : Thread nD τ).loc main_arg0)) (m ((c : Thread nD τ).loc main_arg2)) (m ((c : Thread nD τ).loc main_arg3))) (m ((c : Thread nD τ).loc main_arg4)) (DINV (m ((c : Thread nD τ).loc main_arg1))) := by
  refine Eq.trans ?_ (w5_v25 m ρ c)
  show StableHlo.after hostOps3 (W5 m ρ c) (Proc.devRef .tc main_v25) = _
  not_written
theorem w6_v11 : (W6 m ρ c (Proc.devRef .tc main_v11) : FVec Ideal S100000x1 .f32) = DINV (m ((c : Thread nD τ).loc main_arg1)) := by
  refine Eq.trans ?_ (w5_v11 m ρ c)
  show StableHlo.after hostOps3 (W5 m ρ c) (Proc.devRef .tc main_v11) = _
  not_written
theorem w6_v24 : (W6 m ρ c (Proc.devRef .tc main_v24) : FVec Ideal S100000x128 .f32)
    = LAYER (m ((c : Thread nD τ).loc main_arg1)) (m ((c : Thread nD τ).loc main_arg0)) (m ((c : Thread nD τ).loc main_arg2)) (m ((c : Thread nD τ).loc main_arg3)) := by
  refine Eq.trans ?_ (w5_v24 m ρ c)
  show StableHlo.after hostOps3 (W5 m ρ c) (Proc.devRef .tc main_v24) = _
  not_written

/-! ## Through the second epilogue launch, and the concatenation -/

theorem w7_v37 : (W7 m ρ c (Proc.devRef .tc main_v37) : FVec Ideal S100000x128 .f32)
    = LAYER (m ((c : Thread nD τ).loc main_arg1)) (LAYER (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5)) := by
  refine (W7_arr m ρ c 4).trans ?_
  rw [Reg3.final (V6 m ρ) c]
  show EP (W6 m ρ c (Proc.devRef .tc main_v35)) (W6 m ρ c (Proc.devRef .tc main_v25)) (W6 m ρ c (Proc.devRef .tc main_v11))
    (W6 m ρ c (Proc.devRef .tc main_v36)) = _
  rw [w6_v35, w6_v25, w6_v11, w6_v36]
  rfl
theorem w7_v24 : (W7 m ρ c (Proc.devRef .tc main_v24) : FVec Ideal S100000x128 .f32)
    = LAYER (m ((c : Thread nD τ).loc main_arg1)) (m ((c : Thread nD τ).loc main_arg0)) (m ((c : Thread nD τ).loc main_arg2)) (m ((c : Thread nD τ).loc main_arg3)) :=
  (W7_of_ne m ρ c main_v24 (by decide)).trans (w6_v24 m ρ c)

/-- The result buffer at the last boundary is the composed term of the argument arrays. -/
theorem w8_v38 : (W8 m ρ c (Proc.devRef .tc main_v38) : FVec Ideal S100000x256 .f32)
    = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps4 (W7 m ρ c) (Proc.devRef .tc main_v38) = _
  after_results
  rw [w7_v24, w7_v37]
  rfl

end Cert.KernelIdeal.Chain

end
-- ==== Proof.Spec.lean ====
/-
  A two-layer graph convolution over N = 100000 nodes and E = 1600000 directed edges, written twice.

  Every node v has degree deg v = (number of edges into v) + 1, the extra one being v's self loop, and
  dinv v = 1 / sqrt (deg v). One layer sends node features X (N rows of 128) through a 128 x 128 matrix W,
  H = X W, aggregates along the edges with the symmetric normalisation, adds a bias row b and clips at zero:

    layer v k = max (sum over (edges e into v, and the self loop at v) of H (s e) k * dinv (s e) * dinv v  +  b k) 0.

  * The FACTORED form (layerK) scales every row of H by dinv once, sums the scaled rows of the sources of the
    edges into v, adds v's own scaled row (the self loop), multiplies the total by dinv v, adds b and clips.
  * The EDGE-LIST form (layerR) appends the N self loops j -> j to the edge list, recounts the degree over the
    longer list (so no node has degree zero, and the guard "degree positive, else 0" always picks the
    reciprocal root), and sums H (s e') k * ((dinv (s e') * 1) * dinv (d e')) over the longer list's entries
    whose destination is v.

  An edge's source is an arbitrary 32-bit integer: a negative one is shifted up by N, and the result is clamped
  into [0, N - 1] (rowOf). An edge's destination counts for node v only if the integer, read signed, is exactly v.
  The two forms agree whenever every entry of X, W and b is a real number (Proof/Algebra.lean): the step
  from one to the other distributes dinv v over the sum, which fails for infinite summands.
  The output has 256 columns: the first layer's 128, then the second layer's (fed with the first layer's output).
-/
import Idealize.ShloMosaic.PureOps.Ideal
import Idealize.ShloMosaic.Lib.ValueIdx

noncomputable section

open scoped BigOperators

namespace Cert.GCN

open Idealize.ShloMosaic

/-- Number of nodes. -/
abbrev NN : Nat := 100000
/-- Number of edges. -/
abbrev EE : Nat := 1600000

/-- A negative row number is shifted up by the number of nodes. -/
def wrap (z : BitVec 32) : BitVec 32 := Scalar.select (IntOp.cmpi .slt z 0#32) (IntOp.addi z 100000#32) z

/-- The row an integer names: shifted if negative, then clamped into [0, N - 1]. -/
def rowOf (z : BitVec 32) : Fin NN :=
  ⟨min (wrap z).toInt.toNat 99999, Nat.lt_of_le_of_lt (Nat.min_le_right _ _) (by decide)⟩

/-- The edges whose destination integer, read signed, is exactly v. -/
def into (dst : Fin EE → BitVec 32) (v : Fin NN) : Finset (Fin EE) :=
  Finset.univ.filter fun e => (dst e).toInt = (v.val : Int)

/-- Degree with the self loop counted apart: (0 + one per edge into v) + 1. -/
def deg (dst : Fin EE → BitVec 32) (v : Fin NN) : EReal := (0 + ∑ _e ∈ into dst v, (1 : EReal)) + 1

/-- 1 / sqrt (deg v). -/
def dinv (dst : Fin EE → BitVec 32) (v : Fin NN) : EReal := Ideal.rsqrt (deg dst v)

/-- The feature product H = X W. -/
def H (X : Fin NN → Fin 128 → EReal) (W : Fin 128 → Fin 128 → EReal) (i : Fin NN) (j : Fin 128) : EReal :=
  ∑ k : Fin 128, X i k * W k j

/-- One layer, factored form. -/
def layerK (src dst : Fin EE → BitVec 32) (X : Fin NN → Fin 128 → EReal) (W : Fin 128 → Fin 128 → EReal)
    (b : Fin 128 → EReal) (v : Fin NN) (k : Fin 128) : EReal :=
  max (dinv dst v * ((0 + ∑ e ∈ into dst v, H X W (rowOf (src e)) k * dinv dst (rowOf (src e)))
      + H X W v k * dinv dst v) + b k) 0

/-- An edge array with the N self loops appended: position e' < E reads the array, position E + j reads j. -/
def cat (a : Fin EE → BitVec 32) (e' : Fin (EE + NN)) : BitVec 32 :=
  if h : e'.val < EE then a ⟨e'.val, h⟩ else BitVec.ofNat 32 (e'.val - EE)

/-- The entries of the longer list whose destination integer, read signed, is exactly v. -/
def into' (dst : Fin EE → BitVec 32) (v : Fin NN) : Finset (Fin (EE + NN)) :=
  Finset.univ.filter fun e' => (cat dst e').toInt = (v.val : Int)

/-- Degree counted over the longer list: 0 + one per entry into v. -/
def degR (dst : Fin EE → BitVec 32) (v : Fin NN) : EReal := 0 + ∑ _e ∈ into' dst v, (1 : EReal)

/-- 1 / sqrt (degR v) where the degree is positive, else 0. -/
def dinvR (dst : Fin EE → BitVec 32) (v : Fin NN) : EReal :=
  Scalar.select (Ideal.cmp .ogt (degR dst v) 0) (Ideal.rsqrt (degR dst v)) 0

/-- One layer, edge-list form. -/
def layerR (src dst : Fin EE → BitVec 32) (X : Fin NN → Fin 128 → EReal) (W : Fin 128 → Fin 128 → EReal)
    (b : Fin 128 → EReal) (v : Fin NN) (k : Fin 128) : EReal :=
  max ((0 + ∑ e' ∈ into' dst v,
      H X W (rowOf (cat src e')) k * ((dinvR dst (rowOf (cat src e')) * 1) * dinvR dst (rowOf (cat dst e')))) + b k) 0

/-- Both layers side by side, factored form: columns 0..127 the first layer, 128..255 the second. -/
def outK (src dst : Fin EE → BitVec 32) (x : Fin NN → Fin 128 → EReal) (W1 : Fin 128 → Fin 128 → EReal)
    (b1 : Fin 128 → EReal) (W2 : Fin 128 → Fin 128 → EReal) (b2 : Fin 128 → EReal) (v : Fin NN) (c : Fin 256) : EReal :=
  if h : c.val < 128 then layerK src dst x W1 b1 v ⟨c.val, h⟩
  else layerK src dst (layerK src dst x W1 b1) W2 b2 v ⟨c.val - 128, by omega⟩

/-- Both layers side by side, edge-list form. -/
def outR (src dst : Fin EE → BitVec 32) (x : Fin NN → Fin 128 → EReal) (W1 : Fin 128 → Fin 128 → EReal)
    (b1 : Fin 128 → EReal) (W2 : Fin 128 → Fin 128 → EReal) (b2 : Fin 128 → EReal) (v : Fin NN) (c : Fin 256) : EReal :=
  if h : c.val < 128 then layerR src dst x W1 b1 v ⟨c.val, h⟩
  else layerR src dst (layerR src dst x W1 b1) W2 b2 v ⟨c.val - 128, by omega⟩

/-! ## The same two functions over the arrays as the programs hold them

  x : [100000, 128], the edge array : [2, 1600000] (row 0 the sources, row 1 the destinations), W1, W2 : [128, 128],
  b1, b2 : [128]; the result : [100000, 256]. -/

open Idealize.ShloMosaic.ValueIdx

/-- The factored form over the argument arrays. -/
def arrK (x : FVec Ideal ⟨2, ![100000, 128]⟩ .f32) (ei : IVec ⟨2, ![2, 1600000]⟩ 32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) : FVec Ideal ⟨2, ![100000, 256]⟩ .f32 :=
  fun j => outK (fun e => ei (ix2 0 e)) (fun e => ei (ix2 1 e)) (fun i k => x (ix2 i k)) (fun i k => W1 (ix2 i k))
    (fun k => b1 (ix1 k)) (fun i k => W2 (ix2 i k)) (fun k => b2 (ix1 k)) (j 0) (j 1)

/-- The edge-list form over the argument arrays. -/
def arrR (x : FVec Ideal ⟨2, ![100000, 128]⟩ .f32) (ei : IVec ⟨2, ![2, 1600000]⟩ 32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) : FVec Ideal ⟨2, ![100000, 256]⟩ .f32 :=
  fun j => outR (fun e => ei (ix2 0 e)) (fun e => ei (ix2 1 e)) (fun i k => x (ix2 i k)) (fun i k => W1 (ix2 i k))
    (fun k => b1 (ix1 k)) (fun i k => W2 (ix2 i k)) (fun k => b2 (ix1 k)) (j 0) (j 1)

end Cert.GCN

end
-- ==== Proof.LibEdgeIndex.lean ====
/-
  Row gather and row scatter-add read at an index.

  A table of N rows (each a row of D entries, or a single entry) is read through a column of M integer row numbers:
  * the gather produces, for position e, the row whose number is the e-th integer read as a signed number and
    clamped into [0, N - 1];
  * the accumulating scatter adds, into row v, every update row e whose integer, read as a signed number and NOT
    clamped, equals v; an integer outside [0, N) names no row and its update is dropped.
  Over the extended reals the accumulated value is the exact sum, so row v of the result is the old row plus the
  sum of the update rows over the set { e | integer e = v }.
-/
import Idealize.ShloMosaic.Lib.ValueIdx
import Idealize.ShloMosaic.PureOps.Ideal

noncomputable section

open scoped BigOperators

namespace Idealize.ShloMosaic.EdgeIndex

open Idealize.ShloMosaic Idealize.ShloMosaic.ValueIdx

theorem fin2_one_ne_zero : ¬ (1 : Fin 2) = 0 := by decide

/-- Two rank-2 indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩

/-- Two rank-1 indices agree exactly when their coordinates do. -/
theorem ix1_eq_iff {n0 : Nat} (a a' : Fin n0) : ix1 a = ix1 a' ↔ a = a' :=
  ⟨fun h => congrFun h 0, fun h => by rw [h]⟩

/-! ## Gather of whole rows of an [N, D] table at an [M, 1] column of row numbers -/

section RowGather
variable {α : Type}

/-- The dimension numbers of x[idx] for x : [N, D] and idx : [M] (as an [M, 1] column): result [M, D]. -/
abbrev rowGatherDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, k) of the gathered array is entry k of the row numbered by the e-th integer, clamped. -/
theorem gather_row_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (k : Fin D) :
    Host.gather (rowGatherDims N M D wf) x idx (ix2 e k)
      = x (ix2 ⟨min (idx (ix2 e 0)).toInt.toNat (N - 1), by omega⟩ k) := by
  have h0 : ((rowGatherDims N M D wf).operandIdx (ix2 e k) idx (0 : Fin 2)).val
      = min (idx (ix2 e 0)).toInt.toNat (N - 1) := by
    show (rowGatherDims N M D wf).start (ix2 e k) idx (0 : Fin 2) + (rowGatherDims N M D wf).batchCoord (ix2 e k) (0 : Fin 2)
      + (rowGatherDims N M D wf).offCoord (ix2 e k) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N M D wf).startIndexMap from List.mem_singleton.mpr rfl)]
    have hsi : (rowGatherDims N M D wf).siIdx (ix2 e k) ⟨List.idxOf (0 : Fin 2) (rowGatherDims N M D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : ((rowGatherDims N M D wf).operandIdx (ix2 e k) idx (1 : Fin 2)).val = k.val := by
    show (rowGatherDims N M D wf).start (ix2 e k) idx (1 : Fin 2) + (rowGatherDims N M D wf).batchCoord (ix2 e k) (1 : Fin 2)
      + (rowGatherDims N M D wf).offCoord (ix2 e k) (1 : Fin 2) = _
    rw [GatherDims.batchCoord_eq_zero _ _ _ List.not_mem_nil, Nat.add_zero]
    have hs : (rowGatherDims N M D wf).start (ix2 e k) idx (1 : Fin 2) = 0 := by
      unfold GatherDims.start
      rw [dif_neg (fun h => absurd (List.mem_singleton.mp h) fin2_one_ne_zero)]
    rw [hs, Nat.zero_add]
    unfold GatherDims.offCoord
    rw [dif_pos ((GatherDims.mem_sKept _ _).mpr ⟨fun h => absurd (List.mem_singleton.mp h) fin2_one_ne_zero, List.not_mem_nil⟩)]
    rfl
  unfold Host.gather
  congr 1
  funext a
  refine Fin.ext ?_
  match a with
  | ⟨0, _⟩ => exact h0
  | ⟨1, _⟩ => exact h1

end RowGather

/-! ## Gather of single entries of an [N] table at an [M, 1] column of positions -/

section VecGather
variable {α : Type}

/-- The dimension numbers of x[idx] for x : [N] and idx : [M] (as an [M, 1] column): result [M]. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector is the entry numbered by the e-th integer, clamped. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
      + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

/-! ## Accumulating scatter of [M, D] update rows into an [N, D] table at an [M, 1] column of row numbers -/

section RowScatter

/-- The dimension numbers of x.at[idx].add(u) for x : [N, D], idx : [M] (as an [M, 1] column), u : [M, D]. -/
abbrev rowScatterDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update entry (e, k) lands on entry (z, k) of the table, z the e-th integer read signed, when 0 ≤ z < N, and
    nowhere otherwise. -/
theorem resultIdx_row {N M D w : Nat}
    (wf : ScatterDims.WF ⟨2, ![N, D]⟩ ⟨2, ![M, 1]⟩ ⟨2, ![M, D]⟩ [1] [0] [0] 1)
    (idx : IVec ⟨2, ![M, 1]⟩ w) (e : Fin M) (k : Fin D) :
    (rowScatterDims N M D wf).resultIdx? (ix2 e k) idx =
      if h : 0 ≤ (idx (ix2 e 0)).toInt ∧ (idx (ix2 e 0)).toInt < (N : Int) then
        some (ix2 ⟨(idx (ix2 e 0)).toInt.toNat, by omega⟩ k) else none := by
  have hs0 : (rowScatterDims N M D wf).start (ix2 e k) idx (0 : Fin 2) = (idx (ix2 e 0)).toInt := by
    unfold ScatterDims.start
    rw [dif_pos (show (0 : Fin 2) ∈ (rowScatterDims N M D wf).scatterDimsToOperandDims from
      List.mem_singleton.mpr rfl)]
    have hsi : (rowScatterDims N M D wf).siIdx (ix2 e k)
        ⟨List.idxOf (0 : Fin 2) (rowScatterDims N M D wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (rowScatterDims N M D wf).window (ix2 e k) (0 : Fin 2) = 0 := by
    unfold ScatterDims.window
    rw [dif_neg (by simp [ScatterDims.sKept, Shape.kept])]
  have hs1 : (rowScatterDims N M D wf).start (ix2 e k) idx (1 : Fin 2) = 0 := by
    unfold ScatterDims.start
    rw [dif_neg (fun h => absurd (List.mem_singleton.mp h) fin2_one_ne_zero)]
  have hw1 : (rowScatterDims N M D wf).window (ix2 e k) (1 : Fin 2) = k.val := by
    unfold ScatterDims.window
    rw [dif_pos (by simp [ScatterDims.sKept, Shape.kept])]
    rfl
  unfold ScatterDims.resultIdx?
  by_cases h : 0 ≤ (idx (ix2 e 0)).toInt ∧ (idx (ix2 e 0)).toInt < (N : Int)
  · have hP0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) := by
      rw [hs0, hw0]; simpa using h
    have hP1 : 0 ≤ (rowScatterDims N M D wf).start (ix2 e k) idx (1 : Fin 2) + ((rowScatterDims N M D wf).window (ix2 e k) (1 : Fin 2) : Int)
        ∧ (rowScatterDims N M D wf).start (ix2 e k) idx (1 : Fin 2) + ((rowScatterDims N M D wf).window (ix2 e k) (1 : Fin 2) : Int) < (D : Int) := by
      rw [hs1, hw1]; exact ⟨by omega, by have := k.isLt; omega⟩
    have hall : ∀ a : Fin 2, 0 ≤ (rowScatterDims N M D wf).start (ix2 e k) idx a + ((rowScatterDims N M D wf).window (ix2 e k) a : Int)
        ∧ (rowScatterDims N M D wf).start (ix2 e k) idx a + ((rowScatterDims N M D wf).window (ix2 e k) a : Int)
          < (((⟨2, ![N, D]⟩ : Shape).size a : Nat) : Int) := fun a =>
      match a with
      | ⟨0, _⟩ => hP0
      | ⟨1, _⟩ => hP1
    rw [dif_pos hall, dif_pos h]
    congr 1
    funext a
    refine Fin.ext ?_
    match a with
    | ⟨0, _⟩ =>
      show ((rowScatterDims N M D wf).start (ix2 e k) idx (0 : Fin 2)
        + ((rowScatterDims N M D wf).window (ix2 e k) (0 : Fin 2) : Int)).toNat = (idx (ix2 e 0)).toInt.toNat
      rw [hs0, hw0]; simp
    | ⟨1, _⟩ =>
      show ((rowScatterDims N M D wf).start (ix2 e k) idx (1 : Fin 2)
        + ((rowScatterDims N M D wf).window (ix2 e k) (1 : Fin 2) : Int)).toNat = k.val
      rw [hs1, hw1]; simp
  · rw [dif_neg h, dif_neg]
    intro hall
    have h0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) :=
      hall 0
    rw [hs0, hw0] at h0
    exact h (by simpa using h0)

/-- Over the extended reals, entry (v, k) of the accumulated table is the old entry plus the sum of the update
    entries (e, k) over the positions e whose integer, read signed, is v. -/
theorem scatterAdd_row_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w)
    (upd : (⟨2, ![M, D]⟩ : Shape).Idx → EReal) (v : Fin N) (k : Fin D) :
    Ideal.hostScatterAdd (rowScatterDims N M D wf) x idx upd (ix2 v k)
      = x (ix2 v k) + ∑ e ∈ Finset.univ.filter (fun e : Fin M => (idx (ix2 e 0)).toInt = (v.val : Int)), upd (ix2 e k) := by
  unfold Ideal.hostScatterAdd
  congr 1
  rw [Finset.sum_filter, sum_idx2, Finset.sum_filter]
  refine Finset.sum_congr rfl fun e _ => ?_
  by_cases hz : (idx (ix2 e 0)).toInt = (v.val : Int)
  · rw [if_pos hz]
    have hin : 0 ≤ (idx (ix2 e 0)).toInt ∧ (idx (ix2 e 0)).toInt < (N : Int) := by
      rw [hz]; exact ⟨by omega, by have := v.isLt; omega⟩
    rw [Finset.sum_eq_single k]
    · rw [if_pos]
      rw [resultIdx_row, dif_pos hin]
      congr 1
      rw [ix2_eq_iff]
      exact ⟨Fin.ext (by show (idx (ix2 e 0)).toInt.toNat = v.val; omega), rfl⟩
    · intro k' _ hk'
      rw [if_neg]
      rw [resultIdx_row, dif_pos hin]
      intro hh
      exact hk' ((ix2_eq_iff _ _ _ _).mp (Option.some.inj hh)).2
    · intro hk; exact absurd (Finset.mem_univ k) hk
  · rw [if_neg hz]
    refine Finset.sum_eq_zero fun k' _ => ?_
    rw [if_neg]
    rw [resultIdx_row]
    split
    · rename_i hin
      intro hh
      have := ((ix2_eq_iff _ _ _ _).mp (Option.some.inj hh)).1
      have hv : (idx (ix2 e 0)).toInt.toNat = v.val := congrArg Fin.val this
      exact hz (by omega)
    · intro hh; cases hh

end RowScatter

/-! ## Accumulating scatter of [M] updates into an [N] vector at an [M, 1] column of positions -/

section VecScatter

/-- The dimension numbers of x.at[idx].add(u) for x : [N], idx : [M] (as an [M, 1] column), u : [M]. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry z of the vector, z the e-th integer read signed, when 0 ≤ z < N, and nowhere otherwise. -/
theorem resultIdx_vec {N M w : Nat}
    (wf : ScatterDims.WF ⟨1, ![N]⟩ ⟨2, ![M, 1]⟩ ⟨1, ![M]⟩ [] [0] [0] 1)
    (idx : IVec ⟨2, ![M, 1]⟩ w) (e : Fin M) :
    (vecScatterDims N M wf).resultIdx? (ix1 e) idx =
      if h : 0 ≤ (idx (ix2 e 0)).toInt ∧ (idx (ix2 e 0)).toInt < (N : Int) then
        some (ix1 ⟨(idx (ix2 e 0)).toInt.toNat, by omega⟩) else none := by
  have hs0 : (vecScatterDims N M wf).start (ix1 e) idx (0 : Fin 1) = (idx (ix2 e 0)).toInt := by
    unfold ScatterDims.start
    rw [dif_pos (show (0 : Fin 1) ∈ (vecScatterDims N M wf).scatterDimsToOperandDims from
      List.mem_singleton.mpr rfl)]
    have hsi : (vecScatterDims N M wf).siIdx (ix1 e)
        ⟨List.idxOf (0 : Fin 1) (vecScatterDims N M wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (vecScatterDims N M wf).window (ix1 e) (0 : Fin 1) = 0 := by
    unfold ScatterDims.window
    rw [dif_neg (by simp [ScatterDims.sKept, Shape.kept])]
  unfold ScatterDims.resultIdx?
  by_cases h : 0 ≤ (idx (ix2 e 0)).toInt ∧ (idx (ix2 e 0)).toInt < (N : Int)
  · have hP0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) := by
      rw [hs0, hw0]; simpa using h
    have hall : ∀ a : Fin 1, 0 ≤ (vecScatterDims N M wf).start (ix1 e) idx a + ((vecScatterDims N M wf).window (ix1 e) a : Int)
        ∧ (vecScatterDims N M wf).start (ix1 e) idx a + ((vecScatterDims N M wf).window (ix1 e) a : Int)
          < (((⟨1, ![N]⟩ : Shape).size a : Nat) : Int) := fun a =>
      match a with
      | ⟨0, _⟩ => hP0
    rw [dif_pos hall, dif_pos h]
    congr 1
    funext a
    refine Fin.ext ?_
    match a with
    | ⟨0, _⟩ =>
      show ((vecScatterDims N M wf).start (ix1 e) idx (0 : Fin 1)
        + ((vecScatterDims N M wf).window (ix1 e) (0 : Fin 1) : Int)).toNat = (idx (ix2 e 0)).toInt.toNat
      rw [hs0, hw0]; simp
  · rw [dif_neg h, dif_neg]
    intro hall
    have h0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) :=
      hall 0
    rw [hs0, hw0] at h0
    exact h (by simpa using h0)

/-- Over the extended reals, entry v of the accumulated vector is the old entry plus the sum of the updates over the
    positions e whose integer, read signed, is v. -/
theorem scatterAdd_vec_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (v : Fin N) :
    Ideal.hostScatterAdd (vecScatterDims N M wf) x idx upd (ix1 v)
      = x (ix1 v) + ∑ e ∈ Finset.univ.filter (fun e : Fin M => (idx (ix2 e 0)).toInt = (v.val : Int)), upd (ix1 e) := by
  unfold Ideal.hostScatterAdd
  congr 1
  rw [Finset.sum_filter, Finset.sum_filter]
  rw [← Equiv.sum_comp (Equiv.ofBijective (fun e : Fin M => (ix1 e : (⟨1, ![M]⟩ : Shape).Idx))
    ⟨fun a b h => (ix1_eq_iff a b).mp h, fun j => ⟨j 0, (eq_ix1 j).symm⟩⟩)]
  refine Finset.sum_congr rfl fun e _ => ?_
  show (if (vecScatterDims N M wf).resultIdx? (ix1 e) idx = some (ix1 v) then upd (ix1 e) else 0) = _
  rw [resultIdx_vec]
  by_cases hz : (idx (ix2 e 0)).toInt = (v.val : Int)
  · have hin : 0 ≤ (idx (ix2 e 0)).toInt ∧ (idx (ix2 e 0)).toInt < (N : Int) := by
      rw [hz]; exact ⟨by omega, by have := v.isLt; omega⟩
    rw [dif_pos hin, if_pos hz, if_pos]
    congr 1
    rw [ix1_eq_iff]
    exact Fin.ext (by show (idx (ix2 e 0)).toInt.toNat = v.val; omega)
  · rw [if_neg hz, if_neg]
    split
    · intro hh
      have := (ix1_eq_iff _ _).mp (Option.some.inj hh)
      have hv : (idx (ix2 e 0)).toInt.toNat = v.val := congrArg Fin.val this
      exact hz (by omega)
    · intro hh; cases hh

end VecScatter

end Idealize.ShloMosaic.EdgeIndex

end
-- ==== Proof.RefOps.lean ====
/-
  The reference program's operations, read at an index, in the vocabulary of the specification.

  * The two float constants of the program denote 1 and 0.
  * Concatenating an edge array of 1600000 integers with the numbers 0 .. 99999 gives, at position e', the array's
    entry when e' < 1600000 and the number e' - 1600000 otherwise: the specification's `cat`.
  * "If z < 0 then z + 100000 else z" is the specification's `wrap`, and clamping the wrapped integer into
    [0, 99999] is its `rowOf`.
  * "If the degree is positive then its reciprocal square root else 0", as the program spells it, is the
    specification's guarded reciprocal root.
  * The gather of single entries, the gather of rows, and the two accumulating scatters of the program are the
    general ones at N = 100000 rows, M = 1700000 positions and D = 128 columns.
  * Two [100000, 128] tables concatenated along the columns read the first below column 128, the second from there on.
-/
import proofs.«103099_j38268158607494_2_alg».proof.Proof.Spec
import proofs.«103099_j38268158607494_2_alg».proof.Proof.LibEdgeIndex
import Idealize.ShloMosaic.Lib.Pipeline.Value

noncomputable section

open scoped BigOperators

namespace Cert.GCN.Ref

open Idealize.ShloMosaic Idealize.ShloMosaic.ValueIdx Idealize.ShloMosaic.EdgeIndex

/-! ## The constants -/

/-- The pattern 0x3F800000 is the number one. -/
theorem ofBits_one : Ideal.ofBits .f32 0x3F800000#32 = (1 : EReal) := by
  simp [Ideal.ofBits, Ideal.ieee, -EReal.coe_mul]; norm_num

/-- The all-zero pattern is the number zero. -/
theorem ofBits_zero : Ideal.ofBits .f32 0x00000000#32 = (0 : EReal) := by
  simp [Ideal.ofBits, Ideal.ieee, -EReal.coe_mul]

/-! ## An edge array with the node numbers appended -/

/-- Position e' of the concatenation reads the array below 1600000 and the number e' - 1600000 from there on. -/
theorem cat_apply (a : IVec ⟨1, ![1600000]⟩ 32)
    (h : Shape.Concatenates [(⟨1, ![1600000]⟩ : Shape), ⟨1, ![100000]⟩] ⟨1, ![1700000]⟩ 0) (e' : Fin 1700000) :
    concatenate (⟨1, ![1700000]⟩ : Shape) 0
        [⟨⟨1, ![1600000]⟩, a⟩, ⟨⟨1, ![100000]⟩, iotaInDim ⟨1, ![100000]⟩ 32 0⟩] h (ix1 e')
      = cat (fun e => a (ix1 e)) e' := by
  unfold cat
  by_cases hlt : e'.val < 1600000
  · rw [dif_pos hlt]
    exact concatenate_pair_apply_left 0 a _ h (ix1 e') rfl (ix1 ⟨e'.val, hlt⟩) (fun b => by
      obtain rfl : b = 0 := Subsingleton.elim _ _
      rfl)
  · rw [dif_neg hlt]
    have h2 : e'.val - 1600000 < 100000 := by have := e'.isLt; omega
    rw [concatenate_pair_apply_right 0 a _ h (ix1 e') rfl rfl (ix1 ⟨e'.val - 1600000, h2⟩)
      (fun b hb => absurd (Subsingleton.elim _ _) hb) (by show e'.val - 1600000 + 1600000 = e'.val; omega)]
    rfl

/-! ## Row numbers -/

/-- The program's normalisation of a row number is the specification's. -/
theorem wrap_eq (z : BitVec 32) :
    Scalar.select (IntOp.cmpi .slt z 0#32) (IntOp.addi z 100000#32) z = wrap z := rfl

/-- The wrapped integer clamped into [0, 99999] is the row it names. -/
theorem rowOf_eq (z : BitVec 32) (h : min (wrap z).toInt.toNat (100000 - 1) < 100000) :
    (⟨min (wrap z).toInt.toNat (100000 - 1), h⟩ : Fin 100000) = rowOf z := rfl

/-! ## The guarded reciprocal root -/

/-- The program's "degree positive ? 1 / sqrt degree : 0" at one entry. -/
theorem guard_eq (d : EReal) :
    Scalar.select (FloatOps.cmpf (F := Ideal) (φ := .f32) .ogt d (Ideal.ofBits .f32 0x00000000#32))
        (FloatOps.hostUnary (F := Ideal) (φ := .f32) .rsqrt d) (Ideal.ofBits .f32 0x00000000#32)
      = Scalar.select (Ideal.cmp .ogt d 0) (Ideal.rsqrt d) 0 := by
  rw [ofBits_zero]; rfl

/-! ## The gathers and the scatters at the program's shapes -/

/-- Entry e of a gathered vector whose e-th position is a wrapped integer: the entry at the row the integer names. -/
theorem gather_vec_rowOf {α : Type}
    (wf : GatherDims.WF ⟨1, ![100000]⟩ ⟨2, ![1700000, 1]⟩ ⟨1, ![1700000]⟩ [] [0] [] [0] [] 1 ![1])
    (x : (⟨1, ![100000]⟩ : Shape).Idx → α) (idx : IVec ⟨2, ![1700000, 1]⟩ 32) (e : Fin 1700000) (z : BitVec 32)
    (hz : idx (ix2 e 0) = wrap z) :
    Host.gather (vecGatherDims 100000 1700000 wf) x idx (ix1 e) = x (ix1 (rowOf z)) := by
  rw [gather_vec_apply (by norm_num)]
  have hr : (⟨min (idx (ix2 e 0)).toInt.toNat (100000 - 1), by omega⟩ : Fin 100000) = rowOf z :=
    Fin.ext (by show min (idx (ix2 e 0)).toInt.toNat (100000 - 1) = min (wrap z).toInt.toNat 99999; rw [hz])
  rw [hr]

/-- Entry (e, k) of a gathered table whose e-th position is a wrapped integer: entry k of the row the integer names. -/
theorem gather_row_rowOf {α : Type}
    (wf : GatherDims.WF ⟨2, ![100000, 128]⟩ ⟨2, ![1700000, 1]⟩ ⟨2, ![1700000, 128]⟩ [1] [0] [] [0] [] 1 ![1, 128])
    (x : (⟨2, ![100000, 128]⟩ : Shape).Idx → α) (idx : IVec ⟨2, ![1700000, 1]⟩ 32) (e : Fin 1700000) (k : Fin 128)
    (z : BitVec 32) (hz : idx (ix2 e 0) = wrap z) :
    Host.gather (rowGatherDims 100000 1700000 128 wf) x idx (ix2 e k) = x (ix2 (rowOf z) k) := by
  rw [gather_row_apply (by norm_num)]
  have hr : (⟨min (idx (ix2 e 0)).toInt.toNat (100000 - 1), by omega⟩ : Fin 100000) = rowOf z :=
    Fin.ext (by show min (idx (ix2 e 0)).toInt.toNat (100000 - 1) = min (wrap z).toInt.toNat 99999; rw [hz])
  rw [hr]

/-- The accumulating scatter of a vector of updates, at the ideal instance, entry v. -/
theorem scatter_vec_at
    (wf : ScatterDims.WF ⟨1, ![100000]⟩ ⟨2, ![1700000, 1]⟩ ⟨1, ![1700000]⟩ [] [0] [0] 1)
    (x : FVec Ideal ⟨1, ![100000]⟩ .f32) (idx : IVec ⟨2, ![1700000, 1]⟩ 32)
    (upd : FVec Ideal ⟨1, ![1700000]⟩ .f32) (v : Fin 100000) :
    Host.scatterAdd (F := Ideal) (vecScatterDims 100000 1700000 wf) x idx upd (ix1 v)
      = x (ix1 v) + ∑ e ∈ Finset.univ.filter (fun e : Fin 1700000 => (idx (ix2 e 0)).toInt = (v.val : Int)),
          upd (ix1 e) :=
  scatterAdd_vec_apply wf x idx upd v

/-- The accumulating scatter of rows of updates, at the ideal instance, entry (v, k). -/
theorem scatter_row_at
    (wf : ScatterDims.WF ⟨2, ![100000, 128]⟩ ⟨2, ![1700000, 1]⟩ ⟨2, ![1700000, 128]⟩ [1] [0] [0] 1)
    (x : FVec Ideal ⟨2, ![100000, 128]⟩ .f32) (idx : IVec ⟨2, ![1700000, 1]⟩ 32)
    (upd : FVec Ideal ⟨2, ![1700000, 128]⟩ .f32) (v : Fin 100000) (k : Fin 128) :
    Host.scatterAdd (F := Ideal) (rowScatterDims 100000 1700000 128 wf) x idx upd (ix2 v k)
      = x (ix2 v k) + ∑ e ∈ Finset.univ.filter (fun e : Fin 1700000 => (idx (ix2 e 0)).toInt = (v.val : Int)),
          upd (ix2 e k) :=
  scatterAdd_row_apply wf x idx upd v k

/-! ## Two tables side by side -/

/-- Two [100000, 128] tables side by side: column c reads the first table below 128 and the second, at c - 128, from there on. -/
theorem concat_cols {α : Type} (x₁ x₂ : (⟨2, ![100000, 128]⟩ : Shape).Idx → α)
    (h : Shape.Concatenates [(⟨2, ![100000, 128]⟩ : Shape), ⟨2, ![100000, 128]⟩] ⟨2, ![100000, 256]⟩ 1)
    (v : Fin 100000) (c : Fin 256) :
    concatenate (⟨2, ![100000, 256]⟩ : Shape) 1 [⟨⟨2, ![100000, 128]⟩, x₁⟩, ⟨⟨2, ![100000, 128]⟩, x₂⟩] h (ix2 v c)
      = if hc : c.val < 128 then x₁ (ix2 v ⟨c.val, hc⟩) else x₂ (ix2 v ⟨c.val - 128, by have := c.isLt; omega⟩) := by
  by_cases hc : c.val < 128
  · rw [dif_pos hc]
    exact concatenate_pair_apply_left (t := ⟨2, ![100000, 256]⟩) (s₁ := ⟨2, ![100000, 128]⟩) (s₂ := ⟨2, ![100000, 128]⟩)
      1 x₁ x₂ h (ix2 v c) rfl (ix2 v ⟨c.val, hc⟩) (fun b => by
        match b with
        | ⟨0, _⟩ => rfl
        | ⟨1, _⟩ => rfl)
  · rw [dif_neg hc]
    have h2 : c.val - 128 < 128 := by have := c.isLt; omega
    exact concatenate_pair_apply_right (t := ⟨2, ![100000, 256]⟩) (s₁ := ⟨2, ![100000, 128]⟩) (s₂ := ⟨2, ![100000, 128]⟩)
      1 x₁ x₂ h (ix2 v c) rfl rfl (ix2 v ⟨c.val - 128, h2⟩) (fun b hb => by
        match b, hb with
        | ⟨0, _⟩, _ => rfl
        | ⟨1, _⟩, hb => exact absurd rfl hb) (by show c.val - 128 + 128 = c.val; omega)

end Cert.GCN.Ref

end
-- ==== Proof.KerValue.lean ====
/-
  The composed term of the idealized kernel program, read index by index, is the factored form of the
  specification.

  The source and destination vectors read rows 0 and 1 of the edge array. The degree at node v is zero plus one per
  edge whose destination integer is v, plus one; the reciprocal-root column reads its reciprocal root. The
  matmul-and-scale array reads (X W) v k * dinv v. The gathered rows accumulated at the destinations read, at (v, k),
  zero plus the sum over the edges into v of the gathered array at the row the edge's source names. The epilogue then
  is the specification's layer; the two layers side by side are its two column ranges.
-/
import proofs.«103099_j38268158607494_2_alg».proof.Proof.KerTerms
import proofs.«103099_j38268158607494_2_alg».proof.Proof.Spec
import proofs.«103099_j38268158607494_2_alg».proof.Proof.LibEdgeIndex
import proofs.«103099_j38268158607494_2_alg».proof.Proof.LibKeepdims
import proofs.«103099_j38268158607494_2_alg».proof.Proof.RefOps
import Idealize.ShloMosaic.Lib.Pipeline.Value
import Idealize.ShloMosaic.Lib.ValueIdx
import Idealize.ShloMosaic.Lib.ValueLayout

noncomputable section

open scoped BigOperators

namespace Cert.KernelIdeal.Val

open Cert.KernelIdeal Cert.KernelIdeal.Gen Cert.KernelIdeal.Pay Cert.KernelIdeal.Terms Cert.GCN
open Idealize.ShloMosaic Idealize.ShloMosaic.ValueIdx Idealize.ShloMosaic.EdgeIndex

variable (a1 : IVec S2x1600000 32)

/-- The source vector reads row 0 of the edge array. -/
theorem src_at (e : Fin 1600000) : SRC a1 (ix1 e) = a1 (ix2 (0 : Fin 2) e) := by
  unfold SRC
  rw [shapeCast_1a_a_apply]
  exact slice2_axis0_apply 0 a1 _ (0 : Fin 1) e (0 : Fin 2) rfl

/-- The destination vector reads row 1 of the edge array. -/
theorem dst_at (e : Fin 1600000) : DST a1 (ix1 e) = a1 (ix2 (1 : Fin 2) e) := by
  unfold DST
  rw [shapeCast_1a_a_apply]
  exact slice2_axis0_apply 1 a1 _ (0 : Fin 1) e (1 : Fin 2) rfl

/-- A vector of 1600000 entries viewed as a column reads, at (e, 0), its entry e. -/
theorem col_at {α : Type} (v : S1600000.Idx → α) (h : S1600000.BroadcastsInDim S1600000x1 ![0]) (e : Fin 1600000) :
    broadcastInDim S1600000x1 ![0] h v (ix2 e (0 : Fin 1)) = v (ix1 e) :=
  broadcastInDim_apply _ h v _ (ix1 e) (fun a => by
    obtain rfl : a = 0 := Subsingleton.elim _ _
    show e.val = if (1600000 : ℕ) = 1 then 0 else e.val
    rw [if_neg (by decide)])

/-- The accumulating scatter of a vector of updates over the extended reals, entry v. -/
theorem scatter_vec_at
    (wf : ScatterDims.WF ⟨1, ![100000]⟩ ⟨2, ![1600000, 1]⟩ ⟨1, ![1600000]⟩ [] [0] [0] 1)
    (x : FVec Ideal ⟨1, ![100000]⟩ .f32) (idx : IVec ⟨2, ![1600000, 1]⟩ 32)
    (upd : FVec Ideal ⟨1, ![1600000]⟩ .f32) (v : Fin 100000) :
    Host.scatterAdd (F := Ideal) (vecScatterDims 100000 1600000 wf) x idx upd (ix1 v)
      = x (ix1 v) + ∑ e ∈ Finset.univ.filter (fun e : Fin 1600000 => (idx (ix2 e 0)).toInt = (v.val : Int)),
          upd (ix1 e) :=
  scatterAdd_vec_apply wf x idx upd v

/-- The accumulating scatter of rows of updates over the extended reals, entry (v, k). -/
theorem scatter_row_at
    (wf : ScatterDims.WF ⟨2, ![100000, 128]⟩ ⟨2, ![1600000, 1]⟩ ⟨2, ![1600000, 128]⟩ [1] [0] [0] 1)
    (x : FVec Ideal ⟨2, ![100000, 128]⟩ .f32) (idx : IVec ⟨2, ![1600000, 1]⟩ 32)
    (upd : FVec Ideal ⟨2, ![1600000, 128]⟩ .f32) (v : Fin 100000) (k : Fin 128) :
    Host.scatterAdd (F := Ideal) (rowScatterDims 100000 1600000 128 wf) x idx upd (ix2 v k)
      = x (ix2 v k) + ∑ e ∈ Finset.univ.filter (fun e : Fin 1600000 => (idx (ix2 e 0)).toInt = (v.val : Int)),
          upd (ix2 e k) :=
  scatterAdd_row_apply wf x idx upd v k

/-- The edges whose destination column entry, read signed, is v are the edges into v. -/
theorem into_eq (v : Fin 100000) :
    (Finset.univ.filter fun e : Fin 1600000 =>
        (broadcastInDim S1600000x1 ![0] bcast_S1600000_S1600000x1_0 (DST a1) (ix2 e (0 : Fin 1))).toInt = (v.val : Int))
      = into (fun e => a1 (ix2 (1 : Fin 2) e)) v :=
  Finset.filter_congr fun e _ => by rw [col_at, dst_at]

/-- The degree vector at v: zero plus one per edge into v, plus one. -/
theorem deg_at (v : Fin 100000) : DEG a1 (ix1 v) = deg (fun e => a1 (ix2 (1 : Fin 2) e)) v := by
  unfold DEG
  rw [addf_apply]
  show Host.scatterAdd (F := Ideal) (vecScatterDims 100000 1600000 _) _ _ _ (ix1 v) + Ideal.ofBits .f32 0x3F800000#32 = _
  rw [scatter_vec_at, into_eq]
  show (Ideal.ofBits .f32 0x00000000#32 + ∑ _e ∈ into (fun e => a1 (ix2 (1 : Fin 2) e)) v, Ideal.ofBits .f32 0x3F800000#32)
    + Ideal.ofBits .f32 0x3F800000#32 = _
  rw [Ref.ofBits_one, Ref.ofBits_zero]
  rfl

/-- A reciprocal root taken entry by entry, read at an entry. -/
theorem host_rsqrt_at (x : FVec Ideal S100000 .f32) (i : S100000.Idx) :
    Host.rsqrt (F := Ideal) x i = Ideal.rsqrt (x i) := rfl

/-- The reciprocal-root column at (v, 0). -/
theorem dinv_at (v : Fin 100000) : DINV a1 (ix2 v (0 : Fin 1)) = dinv (fun e => a1 (ix2 (1 : Fin 2) e)) v := by
  unfold DINV
  refine (shapeCast_a_a1_apply (a := 100000) (Host.rsqrt (F := Ideal) (DEG a1)) shapeCasts_S100000_S100000x1 v (0 : Fin 1)).trans ?_
  rw [host_rsqrt_at, deg_at]
  rfl

/-- The matmul-and-scale array at (v, k). -/
theorem ms_at (x : FVec Ideal S100000x128 .f32) (w : FVec Ideal S128x128 .f32) (v : Fin 100000) (k : Fin 128) :
    MS x w (DINV a1) (ix2 v k)
      = H (fun i k => x (ix2 i k)) (fun i k => w (ix2 i k)) v k * dinv (fun e => a1 (ix2 (1 : Fin 2) e)) v := by
  show (∑ k' : Fin 128, x (ix2 v k') * w (ix2 k' k)) * DINV a1 (ix2 v (0 : Fin 1)) = _
  rw [dinv_at]
  rfl

/-- The shifted source column at (e, 0). -/
theorem srcw_at (e : Fin 1600000) : SRCW a1 (ix2 e (0 : Fin 1)) = wrap (a1 (ix2 (0 : Fin 2) e)) := by
  unfold SRCW
  rw [col_at]
  show Scalar.select (IntOp.cmpi .slt (SRC a1 (ix1 e)) 0#32) (IntOp.addi (SRC a1 (ix1 e)) 100000#32) (SRC a1 (ix1 e)) = _
  rw [src_at]
  rfl

/-- The accumulated gathered rows at (v, k). -/
theorem agg_at (hp : FVec Ideal S100000x128 .f32) (v : Fin 100000) (k : Fin 128) :
    AGG a1 hp (ix2 v k)
      = 0 + ∑ e ∈ into (fun e => a1 (ix2 (1 : Fin 2) e)) v, hp (ix2 (rowOf (a1 (ix2 (0 : Fin 2) e))) k) := by
  unfold AGG
  show Host.scatterAdd (F := Ideal) (rowScatterDims 100000 1600000 128 _) _ _ _ (ix2 v k) = _
  rw [scatter_row_at, into_eq]
  show Ideal.ofBits .f32 0x00000000#32 + ∑ e ∈ into (fun e => a1 (ix2 (1 : Fin 2) e)) v,
      Host.gather (rowGatherDims 100000 1600000 128 _) hp (SRCW a1) (ix2 e k) = _
  rw [Ref.ofBits_zero]
  refine congrArg (fun s : EReal => 0 + s) (Finset.sum_congr rfl fun e _ => ?_)
  rw [gather_row_apply (by norm_num)]
  refine congrArg (fun r => hp (ix2 r k)) (Fin.ext ?_)
  show min (SRCW a1 (ix2 e (0 : Fin 1))).toInt.toNat (100000 - 1) = min (wrap (a1 (ix2 (0 : Fin 2) e))).toInt.toNat 99999
  rw [srcw_at]

/-- The bias row at (0, k). -/
theorem brow_at (b : FVec Ideal S128 .f32) (k : Fin 128) : BROW b (ix2 (0 : Fin 1) k) = b (ix1 k) := by
  unfold BROW
  exact shapeCast_a_1a_apply b _ 0 k

/-- One layer at (v, k) is the specification's factored layer. -/
theorem layer_at (x : FVec Ideal S100000x128 .f32) (w : FVec Ideal S128x128 .f32) (b : FVec Ideal S128 .f32)
    (v : Fin 100000) (k : Fin 128) :
    LAYER a1 x w b (ix2 v k)
      = layerK (fun e => a1 (ix2 (0 : Fin 2) e)) (fun e => a1 (ix2 (1 : Fin 2) e)) (fun i k => x (ix2 i k))
          (fun i k => w (ix2 i k)) (fun k => b (ix1 k)) v k := by
  show max (DINV a1 (ix2 v (0 : Fin 1)) * (AGG a1 (MS x w (DINV a1)) (ix2 v k) + MS x w (DINV a1) (ix2 v k))
      + BROW b (ix2 (0 : Fin 1) k)) (Ideal.ofBits .f32 0x00000000#32) = _
  rw [agg_at, dinv_at, brow_at, ms_at, Ref.ofBits_zero]
  simp only [ms_at]
  rfl

/-- The program's composed term is the factored form over the argument arrays. -/
theorem out_eq (a0 : FVec Ideal S100000x128 .f32) (a2 : FVec Ideal S128x128 .f32) (a3 : FVec Ideal S128 .f32)
    (a4 : FVec Ideal S128x128 .f32) (a5 : FVec Ideal S128 .f32) :
    OUT a0 a1 a2 a3 a4 a5 = arrK a0 a1 a2 a3 a4 a5 := by
  funext j
  obtain ⟨v, cc, rfl⟩ : ∃ (v : Fin 100000) (cc : Fin 256), j = ix2 v cc := ⟨j 0, j 1, eq_ix2 j⟩
  unfold OUT
  rw [Ref.concat_cols]
  show _ = outK _ _ _ _ _ _ _ v cc
  unfold outK
  by_cases hc : cc.val < 128
  · rw [dif_pos hc, dif_pos hc, layer_at]
  · rw [dif_neg hc, dif_neg hc, layer_at]
    have hin : (fun i k => LAYER a1 a0 a2 a3 (ix2 i k))
        = layerK (fun e => a1 (ix2 (0 : Fin 2) e)) (fun e => a1 (ix2 (1 : Fin 2) e)) (fun i k => a0 (ix2 i k))
            (fun i k => a2 (ix2 i k)) (fun k => a3 (ix1 k)) :=
      funext fun i => funext fun k => layer_at a1 a0 a2 a3 i k
    rw [hin]

end Cert.KernelIdeal.Val

end
-- ==== Proof.RefStages.lean ====
/-
  The reference program, stage by stage, is the edge-list form of the specification.

  One layer of the program, as a function of its node features X, the edge array, the matrix W and the bias b:
    * rows 0 and 1 of the edge array, each with the node numbers 0 .. 99999 appended (the self loops): `cat`;
    * the degree vector, an accumulating scatter of ones at the extended destinations: `degR`;
    * "degree positive ? 1 / sqrt degree : 0": `dinvR`;
    * the extended sources and destinations, a negative one shifted up by the number of nodes (`wrap`), used as
      clamped row numbers (`rowOf`) into that vector: the weight (dinv (source) * 1) * dinv (destination);
    * the feature product H = X W, its rows gathered at the extended sources and multiplied by the weight;
    * the accumulating scatter of those rows at the extended destinations, plus the bias, clipped at zero.
  Read at an index (v, k) this is `layerR` literally. The second layer of the program is the same function applied
  to the first layer's output, and the result places the two side by side.
-/
import proofs.«103099_j38268158607494_2_alg».proof.Proof.RefRead
import proofs.«103099_j38268158607494_2_alg».proof.Proof.RefOps

noncomputable section

open scoped BigOperators

namespace Cert.GCN.Ref

open Idealize.ShloMosaic Idealize.ShloMosaic.ValueIdx Idealize.ShloMosaic.EdgeIndex
open Cert.ReferenceIdeal Cert.ReferenceIdeal.Gen Cert.ReferenceIdeal.ReadP
open Idealize.ShloMosaic.TcCoe Idealize.SL.Sem Idealize.ShloMosaic.StableHlo

/-! ## The two rows of the edge array, and the lists with the self loops appended -/

/-- Row 0 of the edge array, flattened: the sources. -/
theorem v2_at (x1 : (⟨S2x1600000, .i32⟩ : BufTy).Contents (Elt Ideal)) (e : Fin 1600000) :
    val_main_v2 (F := Ideal) x1 (ix1 e) = x1 (ix2 0 e) := by
  rw [val_main_v2_apply, val_main_v1_apply]
  congr 1
  funext a
  refine Fin.ext ?_
  match a with
  | ⟨0, _⟩ => rfl
  | ⟨1, _⟩ => exact Nat.mod_eq_of_lt e.isLt

/-- Row 1 of the edge array, flattened: the destinations. -/
theorem v4_at (x1 : (⟨S2x1600000, .i32⟩ : BufTy).Contents (Elt Ideal)) (e : Fin 1600000) :
    val_main_v4 (F := Ideal) x1 (ix1 e) = x1 (ix2 1 e) := by
  rw [val_main_v4_apply, val_main_v3_apply]
  congr 1
  funext a
  refine Fin.ext ?_
  match a with
  | ⟨0, _⟩ => rfl
  | ⟨1, _⟩ => exact Nat.mod_eq_of_lt e.isLt

/-- The sources with the node numbers appended. -/
theorem v6_at (x1 : (⟨S2x1600000, .i32⟩ : BufTy).Contents (Elt Ideal)) (e' : Fin 1700000) :
    val_main_v6 (F := Ideal) x1 (ix1 e') = cat (fun e => x1 (ix2 0 e)) e' := by
  unfold val_main_v6 val_main_v5
  rw [cat_apply]
  congr 1
  funext e
  exact v2_at x1 e

/-- The destinations with the node numbers appended. -/
theorem v7_at (x1 : (⟨S2x1600000, .i32⟩ : BufTy).Contents (Elt Ideal)) (e' : Fin 1700000) :
    val_main_v7 (F := Ideal) x1 (ix1 e') = cat (fun e => x1 (ix2 1 e)) e' := by
  unfold val_main_v7 val_main_v5
  rw [cat_apply]
  congr 1
  funext e
  exact v4_at x1 e

/-! ## The wrapped row numbers, as the [M, 1] columns the gathers read -/

/-- The extended sources, wrapped (the column the first gather of the guarded root reads). -/
theorem v21_at (x1 : (⟨S2x1600000, .i32⟩ : BufTy).Contents (Elt Ideal)) (e : Fin 1700000) :
    val_main_v21 (F := Ideal) x1 (ix2 e 0) = wrap (cat (fun e => x1 (ix2 0 e)) e) := by
  rw [val_main_v21_apply]
  have hi : idx_main_v21 (ix2 e (0 : Fin 1)) = ix1 e := by
    funext a
    match a with
    | ⟨0, _⟩ => rfl
  rewrite [hi, val_main_v20_apply, val_main_v17_apply, val_main_v19_apply, val_main_v16_apply, val_main_v18_apply, v6_at]
  rfl

/-- The extended destinations, wrapped (the column the second gather of the guarded root reads). -/
theorem v29_at (x1 : (⟨S2x1600000, .i32⟩ : BufTy).Contents (Elt Ideal)) (e : Fin 1700000) :
    val_main_v29 (F := Ideal) x1 (ix2 e 0) = wrap (cat (fun e => x1 (ix2 1 e)) e) := by
  rw [val_main_v29_apply]
  have hi : idx_main_v29 (ix2 e (0 : Fin 1)) = ix1 e := by
    funext a
    match a with
    | ⟨0, _⟩ => rfl
  rewrite [hi, val_main_v28_apply, val_main_v25_apply, val_main_v27_apply, val_main_v24_apply, val_main_v26_apply, v7_at]
  rfl

/-- The extended sources, wrapped (the column the gather of the rows of H reads). -/
theorem v37_at (x1 : (⟨S2x1600000, .i32⟩ : BufTy).Contents (Elt Ideal)) (e : Fin 1700000) :
    val_main_v37 (F := Ideal) x1 (ix2 e 0) = wrap (cat (fun e => x1 (ix2 0 e)) e) := by
  rw [val_main_v37_apply]
  have hi : idx_main_v37 (ix2 e (0 : Fin 1)) = ix1 e := by
    funext a
    match a with
    | ⟨0, _⟩ => rfl
  rewrite [hi, val_main_v36_apply, val_main_v33_apply, val_main_v35_apply, val_main_v32_apply, val_main_v34_apply, v6_at]
  rfl

/-! ## The degree and its guarded reciprocal root -/

/-- The degree vector: zero plus one per entry of the extended destination list that names v. -/
theorem v11_at (x1 : (⟨S2x1600000, .i32⟩ : BufTy).Contents (Elt Ideal)) (v : Fin 100000) :
    val_main_v11 (F := Ideal) x1 (ix1 v) = degR (fun e => x1 (ix2 1 e)) v := by
  unfold val_main_v11
  have hd : scatter_S100000_S1700000x1_S1700000_n_0_0_1
      = vecScatterDims 100000 1700000 Facts₀.scatter_S100000_S1700000x1_S1700000_n_0_0_1_wf := rfl
  rw [hd, scatter_vec_at]
  have h9 : val_main_v9 (F := Ideal) (ix1 v) = 0 := by
    rw [val_main_v9_apply, val_main_cst_0_apply, Ideal.ofBits_def, ofBits_zero]
  have h10 : ∀ e : Fin 1700000, val_main_v10 (F := Ideal) x1 (ix2 e 0) = cat (fun e => x1 (ix2 1 e)) e := fun e => by
    rw [val_main_v10_apply]
    have hi : idx_main_v10 (ix2 e (0 : Fin 1)) = ix1 e := by
      funext a
      match a with
      | ⟨0, _⟩ => rfl
    rw [hi, v7_at]
  have h8 : ∀ e : Fin 1700000, val_main_v8 (F := Ideal) (ix1 e) = 1 := fun e => by
    rw [val_main_v8_apply, val_main_cst_apply, Ideal.ofBits_def, ofBits_one]
  simp only [h9, h10, h8]
  rfl

/-- The guarded reciprocal root of the degree. -/
theorem v15_at (x1 : (⟨S2x1600000, .i32⟩ : BufTy).Contents (Elt Ideal)) (v : Fin 100000) :
    val_main_v15 (F := Ideal) x1 (ix1 v) = dinvR (fun e => x1 (ix2 1 e)) v := by
  rw [val_main_v15_apply, val_main_v13_apply, val_main_v14_apply, v11_at, val_main_v12_apply, val_main_cst_1_apply,
    val_main_call0_v1_apply, val_main_call0_v0_apply, val_main_cst_2_apply]
  exact guard_eq _

/-! ## The weight of an entry of the extended list -/

/-- The guarded root at the entry's source row. -/
theorem v22_at (x1 : (⟨S2x1600000, .i32⟩ : BufTy).Contents (Elt Ideal)) (e : Fin 1700000) :
    val_main_v22 (F := Ideal) x1 (ix1 e)
      = dinvR (fun e => x1 (ix2 1 e)) (rowOf (cat (fun e => x1 (ix2 0 e)) e)) := by
  unfold val_main_v22
  have hd : gather_S100000_S1700000x1_S1700000_n_0_n_n_0_1_1
      = vecGatherDims 100000 1700000 Facts₀.gather_S100000_S1700000x1_S1700000_n_0_n_n_0_1_1_wf := rfl
  rw [hd, gather_vec_rowOf _ _ _ e _ (v21_at x1 e), v15_at]

/-- The guarded root at the entry's destination row. -/
theorem v30_at (x1 : (⟨S2x1600000, .i32⟩ : BufTy).Contents (Elt Ideal)) (e : Fin 1700000) :
    val_main_v30 (F := Ideal) x1 (ix1 e)
      = dinvR (fun e => x1 (ix2 1 e)) (rowOf (cat (fun e => x1 (ix2 1 e)) e)) := by
  unfold val_main_v30
  have hd : gather_S100000_S1700000x1_S1700000_n_0_n_n_0_1_1
      = vecGatherDims 100000 1700000 Facts₀.gather_S100000_S1700000x1_S1700000_n_0_n_n_0_1_1_wf := rfl
  rw [hd, gather_vec_rowOf _ _ _ e _ (v29_at x1 e), v15_at]

/-- The entry's weight: (root at the source * 1) * root at the destination. -/
theorem v31_at (x1 : (⟨S2x1600000, .i32⟩ : BufTy).Contents (Elt Ideal)) (e : Fin 1700000) :
    val_main_v31 (F := Ideal) x1 (ix1 e)
      = (dinvR (fun e => x1 (ix2 1 e)) (rowOf (cat (fun e => x1 (ix2 0 e)) e)) * 1)
          * dinvR (fun e => x1 (ix2 1 e)) (rowOf (cat (fun e => x1 (ix2 1 e)) e)) := by
  rewrite [val_main_v31_apply, val_main_v23_apply, v22_at, v30_at, val_main_v8_apply, val_main_cst_apply, Ideal.ofBits_def,
    ofBits_one]
  rfl

/-! ## The feature product and the aggregation -/

/-- The feature product at (r, k): the sum over the 128 columns of X times the rows of W. -/
theorem v0_at (X : (⟨S100000x128, .f32⟩ : BufTy).Contents (Elt Ideal)) (W : (⟨S128x128, .f32⟩ : BufTy).Contents (Elt Ideal))
    (r : Fin 100000) (k : Fin 128) :
    val_main_v0 (F := Ideal) X W (ix2 r k) = H (fun i k => X (ix2 i k)) (fun i k => W (ix2 i k)) r k := by
  rw [val_main_v0_apply]
  unfold H
  refine Finset.sum_congr rfl fun k' _ => ?_
  have hl : lidx_main_v0 (ix2 r k) k' = ix2 r k' := by
    funext a
    match a with
    | ⟨0, _⟩ => rfl
    | ⟨1, _⟩ => rfl
  have hr : ridx_main_v0 (ix2 r k) k' = ix2 k' k := by
    funext a
    match a with
    | ⟨0, _⟩ => rfl
    | ⟨1, _⟩ => rfl
  rw [hl, hr]

/-- The update row of an entry of the extended list: the row of H at its source, times its weight. -/
theorem v41_at (X : (⟨S100000x128, .f32⟩ : BufTy).Contents (Elt Ideal)) (x1 : (⟨S2x1600000, .i32⟩ : BufTy).Contents (Elt Ideal))
    (W : (⟨S128x128, .f32⟩ : BufTy).Contents (Elt Ideal)) (e : Fin 1700000) (k : Fin 128) :
    val_main_v41 (F := Ideal) X x1 W (ix2 e k)
      = H (fun i k => X (ix2 i k)) (fun i k => W (ix2 i k)) (rowOf (cat (fun e => x1 (ix2 0 e)) e)) k
          * ((dinvR (fun e => x1 (ix2 1 e)) (rowOf (cat (fun e => x1 (ix2 0 e)) e)) * 1)
              * dinvR (fun e => x1 (ix2 1 e)) (rowOf (cat (fun e => x1 (ix2 1 e)) e))) := by
  rw [val_main_v41_apply]
  have h38 : val_main_v38 (F := Ideal) X x1 W (ix2 e k)
      = H (fun i k => X (ix2 i k)) (fun i k => W (ix2 i k)) (rowOf (cat (fun e => x1 (ix2 0 e)) e)) k := by
    unfold val_main_v38
    have hd : gather_S100000x128_S1700000x1_S1700000x128_1_0_n_n_0_1_1128
        = rowGatherDims 100000 1700000 128 Facts₀.gather_S100000x128_S1700000x1_S1700000x128_1_0_n_n_0_1_1128_wf := rfl
    rw [hd, gather_row_rowOf _ _ _ e k _ (v37_at x1 e), v0_at]
  have h40 : val_main_v40 (F := Ideal) x1 (ix2 e k) = val_main_v31 (F := Ideal) x1 (ix1 e) := by
    have hi : idx_main_v39 (idx_main_v40 (ix2 e k)) = ix1 e := by
      funext a
      match a with
      | ⟨0, _⟩ => rfl
    rw [val_main_v40_apply, val_main_v39_apply, hi]
  rewrite [h38, h40, v31_at]
  rfl

/-- The aggregated rows: zero plus the sum of the update rows over the entries whose destination names v. -/
theorem v44_at (X : (⟨S100000x128, .f32⟩ : BufTy).Contents (Elt Ideal)) (x1 : (⟨S2x1600000, .i32⟩ : BufTy).Contents (Elt Ideal))
    (W : (⟨S128x128, .f32⟩ : BufTy).Contents (Elt Ideal)) (v : Fin 100000) (k : Fin 128) :
    val_main_v44 (F := Ideal) X x1 W (ix2 v k)
      = 0 + ∑ e' ∈ into' (fun e => x1 (ix2 1 e)) v,
          H (fun i k => X (ix2 i k)) (fun i k => W (ix2 i k)) (rowOf (cat (fun e => x1 (ix2 0 e)) e')) k
            * ((dinvR (fun e => x1 (ix2 1 e)) (rowOf (cat (fun e => x1 (ix2 0 e)) e')) * 1)
                * dinvR (fun e => x1 (ix2 1 e)) (rowOf (cat (fun e => x1 (ix2 1 e)) e'))) := by
  unfold val_main_v44
  have hd : scatter_S100000x128_S1700000x1_S1700000x128_1_0_0_1
      = rowScatterDims 100000 1700000 128 Facts₀.scatter_S100000x128_S1700000x1_S1700000x128_1_0_0_1_wf := rfl
  rw [hd, scatter_row_at]
  have h42 : val_main_v42 (F := Ideal) (ix2 v k) = 0 := by
    rw [val_main_v42_apply, val_main_cst_8_apply, Ideal.ofBits_def, ofBits_zero]
  have h43 : ∀ e : Fin 1700000, val_main_v43 (F := Ideal) x1 (ix2 e 0) = cat (fun e => x1 (ix2 1 e)) e := fun e => by
    rw [val_main_v43_apply]
    have hi : idx_main_v43 (ix2 e (0 : Fin 1)) = ix1 e := by
      funext a
      match a with
      | ⟨0, _⟩ => rfl
    rw [hi, v7_at]
  simp only [h42, h43, v41_at]
  rfl

/-! ## One layer -/

/-- One layer of the program, read at (v, k), is the edge-list form of the layer. -/
theorem layer_at (X : (⟨S100000x128, .f32⟩ : BufTy).Contents (Elt Ideal)) (x1 : (⟨S2x1600000, .i32⟩ : BufTy).Contents (Elt Ideal))
    (W : (⟨S128x128, .f32⟩ : BufTy).Contents (Elt Ideal)) (b : (⟨S128, .f32⟩ : BufTy).Contents (Elt Ideal))
    (v : Fin 100000) (k : Fin 128) :
    val_main_v48 (F := Ideal) X x1 W b (ix2 v k)
      = layerR (fun e => x1 (ix2 0 e)) (fun e => x1 (ix2 1 e)) (fun i k => X (ix2 i k)) (fun i k => W (ix2 i k))
          (fun k => b (ix1 k)) v k := by
  rewrite [val_main_v48_apply, val_main_v47_apply, v44_at, val_main_v46_apply, val_main_v45_apply, val_main_call1_v0_apply,
    val_main_call1_cst_apply, Ideal.ofBits_def, ofBits_zero]
  have hi : idx_main_v45 (idx_main_v46 (ix2 v k)) = ix1 k := by
    funext a
    match a with
    | ⟨0, _⟩ => rfl
  rewrite [hi]
  rfl

/-- The second layer of the program is the first layer's function, fed with the first layer's output. -/
theorem v97_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v97 (F := Ideal) x0 x1 x2 x3 x4 x5
      = val_main_v48 (F := Ideal) (val_main_v48 (F := Ideal) x0 x1 x2 x3) x1 x4 x5 := rfl

/-! ## The result -/

/-- The program's result, as a function of its six argument arrays, is the edge-list form over the arrays. -/
theorem stage (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v98 (F := Ideal) x0 x1 x2 x3 x4 x5 = arrR x0 x1 x2 x3 x4 x5 := by
  funext j
  obtain ⟨v, c, rfl⟩ : ∃ (v : Fin 100000) (c : Fin 256), j = ix2 v c := ⟨j 0, j 1, eq_ix2 j⟩
  unfold val_main_v98
  show _ = outR (fun e => x1 (ix2 0 e)) (fun e => x1 (ix2 1 e)) (fun i k => x0 (ix2 i k)) (fun i k => x2 (ix2 i k))
    (fun k => x3 (ix1 k)) (fun i k => x4 (ix2 i k)) (fun k => x5 (ix1 k)) v c
  unfold outR
  rw [concat_cols]
  by_cases hc : c.val < 128
  · rw [dif_pos hc, dif_pos hc]
    exact layer_at x0 x1 x2 x3 v ⟨c.val, hc⟩
  · have hL : (fun (i : Fin 100000) (k : Fin 128) => val_main_v48 (F := Ideal) x0 x1 x2 x3 (ix2 i k))
        = layerR (fun e => x1 (ix2 0 e)) (fun e => x1 (ix2 1 e)) (fun i k => x0 (ix2 i k)) (fun i k => x2 (ix2 i k))
            (fun k => x3 (ix1 k)) := by
      funext i k
      exact layer_at x0 x1 x2 x3 i k
    rw [dif_neg hc, dif_neg hc, v97_eq, layer_at, hL]

/-- The reference run's result is the edge-list form of its six arguments. -/
theorem result (m : (ℓ : Loc nD τ sig) → Buf (Elt Ideal) ℓ) (c : Dev nD) :
    Cert.ReferenceIdeal.ValueP.res_main_v98 (F := Ideal) m c
      = arrR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [val_main_v98_eq]
  exact stage _ _ _ _ _ _

end Cert.GCN.Ref

end
-- ==== Proof.LibIdealReal.lean ====
/-
  Laws of the exact extended-real arithmetic used when two programs compute one real-valued formula in different
  arrangements: a product with a reciprocal against a quotient, a quotient of a product by a nonzero real constant
  against the product with that constant's reciprocal, the square against the power with exponent two, a sum of
  negated terms against the negated sum, and a quotient of a sum against the sum of the quotients.

  The extended reals are not a field: `0 / 0` and `0 * (1 / 0)` differ, opposite infinities do not cancel, and
  negation does not distribute over `⊤ + ⊥`. Each law below therefore names what it needs: a nonzero divisor, or that
  the terms are real numbers. The predicate `IsReal` says that an extended real is (the image of) a real number, and
  is closed under the operations met here, so that the needed facts propagate through a long formula step by step.
-/
import Idealize.ShloMosaic.PureOps.Ideal

noncomputable section

namespace Cert.LibIdealReal

open Idealize.ShloMosaic
open scoped BigOperators

variable {ι : Type*}

/-! ## Quotients -/

/-- `x * (1 / y) = x / y` for a divisor other than zero (an infinite divisor included: both sides are `x * 0`). At
    `y = 0` the law fails for `x = 0`: the quotient is the junk value `⊥`, the product `0 * ⊤ = 0`. -/
theorem mul_recip (x y : EReal) (hy : y ≠ 0) : x * Ideal.div 1 y = Ideal.div x y := by
  unfold Ideal.div; rw [if_neg hy, if_neg hy, one_mul]

/-- The quotient of two real numbers, the divisor nonzero, is the real quotient. -/
theorem div_coe_coe (x : ℝ) {y : ℝ} (hy : y ≠ 0) : Ideal.div (x : EReal) (y : EReal) = ((x / y : ℝ) : EReal) := by
  rw [Ideal.div_coe hy, ← EReal.coe_mul, _root_.mul_one_div]

/-- `(a * b) / D = a * (b * (1 / D))` for a nonzero real constant `D`, whatever `a` and `b` are: multiplication of
    extended reals is associative. -/
theorem div_mul_assoc {D : ℝ} (hD : D ≠ 0) (a b : EReal) :
    Ideal.div (a * b) (D : EReal) = a * (b * ((1 / D : ℝ) : EReal)) := by
  rw [Ideal.div_coe hD, mul_assoc]

/-- The power with exponent two of a real number is its square. -/
theorem pow_two (r : ℝ) : Ideal.pow (r : EReal) ((2 : ℝ) : EReal) = (r : EReal) * (r : EReal) := by
  show ((Real.rpow r 2 : ℝ) : EReal) = _
  rw [← EReal.coe_mul]; congr 1
  show r ^ (2 : ℝ) = r * r
  rw [Real.rpow_two, sq]

/-! ## Finite sums of real numbers -/

/-- The inclusion of the reals commutes with finite sums. -/
theorem coe_sum (A : Finset ι) (f : ι → ℝ) : ((∑ j ∈ A, f j : ℝ) : EReal) = ∑ j ∈ A, (f j : EReal) := by
  induction A using Finset.cons_induction with
  | empty => rw [Finset.sum_empty, Finset.sum_empty, EReal.coe_zero]
  | cons a A ha ih => rw [Finset.sum_cons, Finset.sum_cons, EReal.coe_add, ih]

/-- `0 - x` is `-x`. -/
theorem zero_sub_coe (x : ℝ) : (0 : EReal) - (x : EReal) = ((-x : ℝ) : EReal) := by
  rw [← EReal.coe_zero, ← EReal.coe_sub, zero_sub]

/-- Summing `0 - x j` over real terms gives the negated sum. -/
theorem sum_zero_sub (A : Finset ι) (x : ι → ℝ) :
    ∑ j ∈ A, ((0 : EReal) - (x j : EReal)) = -(∑ j ∈ A, (x j : EReal)) := by
  rw [← coe_sum, ← EReal.coe_neg, ← Finset.sum_neg_distrib, coe_sum]
  exact Finset.sum_congr rfl fun j _ => zero_sub_coe (x j)

/-- A sum of real numbers divided by a nonzero real is the sum of the quotients. -/
theorem div_sum (A : Finset ι) (L : ι → ℝ) {n : ℝ} (hn : n ≠ 0) :
    Ideal.div (∑ j ∈ A, (L j : EReal)) (n : EReal) = ∑ j ∈ A, Ideal.div (L j : EReal) (n : EReal) := by
  rw [← coe_sum, div_coe_coe _ hn, Finset.sum_div, coe_sum]
  exact Finset.sum_congr rfl fun j _ => (div_coe_coe _ hn).symm

/-! ## Being a real number -/

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, EReal.coe_zero.symm⟩
theorem IsReal.one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A quotient of real numbers, the divisor nonzero, is a real number. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

theorem IsReal.exp {x : EReal} (hx : IsReal x) : IsReal (Ideal.exp x) := by
  obtain ⟨a, rfl⟩ := hx; exact ⟨Real.exp a, rfl⟩

/-- The logarithm of a positive real number is a real number. -/
theorem IsReal.log {x : EReal} (hx : IsReal x) (hpos : 0 < x) : IsReal (Ideal.log x) := by
  obtain ⟨a, rfl⟩ := hx
  have ha : 0 < a := by exact_mod_cast hpos
  exact ⟨Real.log a, by rw [Ideal.log_coe, if_neg (not_le.mpr ha)]⟩

theorem IsReal.sum (A : Finset ι) (f : ι → EReal) (h : ∀ j ∈ A, IsReal (f j)) : IsReal (∑ j ∈ A, f j) := by
  induction A using Finset.cons_induction with
  | empty => rw [Finset.sum_empty]; exact IsReal.zero
  | cons a A ha ih =>
    rw [Finset.sum_cons]
    exact (h a (Finset.mem_cons_self a A)).add (ih fun j hj => h j (Finset.mem_cons_of_mem hj))

theorem IsReal.ne_bot {x : EReal} (hx : IsReal x) : x ≠ ⊥ := by
  obtain ⟨a, rfl⟩ := hx; exact EReal.coe_ne_bot a

theorem IsReal.ne_top {x : EReal} (hx : IsReal x) : x ≠ ⊤ := by
  obtain ⟨a, rfl⟩ := hx; exact EReal.coe_ne_top a

/-- The square of a real number read on the extended reals is the power with exponent two. -/
theorem IsReal.pow_two {x : EReal} (hx : IsReal x) : Ideal.pow x ((2 : ℝ) : EReal) = x * x := by
  obtain ⟨a, rfl⟩ := hx; exact Cert.LibIdealReal.pow_two a

end Cert.LibIdealReal

end
-- ==== Proof.Algebra.lean ====
/-
  The factored form and the edge-list form of the two-layer graph convolution agree on real data.

  The steps: (a) an integer in [0, N) names its own row; (b) a sum over the entries of the longer list
  (edges, then self loops) whose destination is v is the sum over the edges into v plus the one self-loop
  term at v; (c) hence both degree counts are the real number (edges into v) + 1 >= 1, the guard always
  takes the reciprocal root, and the two normalisers coincide and are real; (d), (e) with every quantity a
  real number the outer factor dinv v distributes over the finite sum; (f) a layer of real data is real,
  so the argument repeats for the second layer; (g) column by column the two outputs agree.
-/
import proofs.«103099_j38268158607494_2_alg».proof.Proof.Spec
import proofs.«103099_j38268158607494_2_alg».proof.Proof.LibIdealReal

noncomputable section

open scoped BigOperators

namespace Cert.GCN

open Idealize.ShloMosaic
open Cert.LibIdealReal

/-! ## (a) Row numbers -/

/-- A nonnegative integer is not shifted. -/
theorem wrap_of_nonneg (z : BitVec 32) (h : 0 ≤ z.toInt) : wrap z = z := by
  unfold wrap IntOp.cmpi Scalar.select
  have hs : z.slt 0#32 = false := by
    simp only [BitVec.slt, BitVec.toInt_zero, decide_eq_false_iff_not, not_lt]
    exact h
  simp [hs]

/-- An integer that, read signed, is exactly the node number v names the row v. -/
theorem rowOf_eq (z : BitVec 32) (v : Fin NN) (h : z.toInt = (v.val : Int)) : rowOf z = v := by
  have h0 : 0 ≤ z.toInt := by rw [h]; exact Int.natCast_nonneg _
  have hv : v.val < 100000 := v.isLt
  apply Fin.ext
  show min (wrap z).toInt.toNat 99999 = v.val
  rw [wrap_of_nonneg z h0, h, Int.toNat_natCast]
  omega

/-- The 32-bit integer written from a node number reads back, signed, as that number. -/
theorem toInt_ofNat_node (v : Fin NN) : (BitVec.ofNat 32 v.val).toInt = (v.val : Int) := by
  have hv : v.val < 100000 := v.isLt
  have hn : (BitVec.ofNat 32 v.val).toNat = v.val := by
    rw [BitVec.toNat_ofNat]; exact Nat.mod_eq_of_lt (by omega)
  rw [BitVec.toInt_eq_toNat_of_lt (by rw [hn]; omega), hn]

/-- The integer written from a node number names that node's row. -/
theorem rowOf_ofNat (v : Fin NN) : rowOf (BitVec.ofNat 32 v.val) = v :=
  rowOf_eq _ v (toInt_ofNat_node v)

/-! ## (b) The longer list: edges, then self loops -/

/-- Position e < E of the longer list reads the edge array. -/
theorem cat_castAdd (a : Fin EE → BitVec 32) (e : Fin EE) : cat a (Fin.castAdd NN e) = a e := by
  unfold cat
  rw [dif_pos (show (Fin.castAdd NN e).val < EE from e.isLt)]
  rfl

/-- Position E + j of the longer list reads the self loop j. -/
theorem cat_natAdd (a : Fin EE → BitVec 32) (j : Fin NN) :
    cat a (Fin.natAdd EE j) = BitVec.ofNat 32 j.val := by
  unfold cat
  have hn : ¬ (Fin.natAdd EE j).val < EE := by
    rw [Fin.coe_natAdd]; omega
  rw [dif_neg hn, Fin.coe_natAdd, Nat.add_sub_cancel_left]

/-- A sum over the entries of the longer list whose destination is v: the edges into v, then the self loop at v. -/
theorem sum_into' (dst : Fin EE → BitVec 32) (v : Fin NN) (g : Fin (EE + NN) → EReal) :
    ∑ e' ∈ into' dst v, g e' = (∑ e ∈ into dst v, g (Fin.castAdd NN e)) + g (Fin.natAdd EE v) := by
  unfold into' into
  rw [Finset.sum_filter, Fin.sum_univ_add, Finset.sum_filter]
  have hc : ∀ j : Fin NN, ((cat dst (Fin.natAdd EE j)).toInt = (v.val : Int)) ↔ j = v := by
    intro j
    rw [cat_natAdd, toInt_ofNat_node]
    constructor
    · intro h; exact Fin.ext (Int.ofNat_inj.mp h)
    · intro h; rw [h]
  simp only [cat_castAdd, hc]
  rw [Finset.sum_ite_eq' Finset.univ v, if_pos (Finset.mem_univ v)]

/-! ## (c) The degree and its reciprocal root -/

/-- A count of ones over a finite set is the real number of its elements. -/
theorem sum_one (A : Finset (Fin EE)) : ∑ _e ∈ A, (1 : EReal) = ((A.card : ℝ) : EReal) := by
  have h : ∑ _e ∈ A, (1 : EReal) = ∑ _e ∈ A, ((1 : ℝ) : EReal) := by simp only [EReal.coe_one]
  rw [h, ← coe_sum, Finset.sum_const, nsmul_eq_mul, mul_one]

/-- The degree is the real number (edges into v) + 1. -/
theorem deg_eq (dst : Fin EE → BitVec 32) (v : Fin NN) :
    deg dst v = ((((into dst v).card : ℝ) + 1 : ℝ) : EReal) := by
  unfold deg
  rw [sum_one, zero_add, EReal.coe_add, EReal.coe_one]

/-- Counting over the longer list gives the same degree: only the bracketing of the sum differs. -/
theorem degR_eq_deg (dst : Fin EE → BitVec 32) (v : Fin NN) : degR dst v = deg dst v := by
  unfold degR deg
  rw [sum_into' dst v (fun _ => 1), add_assoc]

theorem card_add_one_pos (dst : Fin EE → BitVec 32) (v : Fin NN) : (0 : ℝ) < ((into dst v).card : ℝ) + 1 := by
  positivity

/-- The degree is positive. -/
theorem deg_pos (dst : Fin EE → BitVec 32) (v : Fin NN) : (0 : EReal) < deg dst v := by
  rw [deg_eq]; exact EReal.coe_pos.mpr (card_add_one_pos dst v)

/-- The guard "degree positive" always holds. -/
theorem cmp_deg (dst : Fin EE → BitVec 32) (v : Fin NN) : Ideal.cmp .ogt (deg dst v) 0 = 1#1 := by
  show BitVec.ofBool (decide ((0 : EReal) < deg dst v)) = 1#1
  rw [decide_eq_true (deg_pos dst v)]
  rfl

/-- The two normalisers coincide. -/
theorem dinvR_eq_dinv (dst : Fin EE → BitVec 32) (v : Fin NN) : dinvR dst v = dinv dst v := by
  unfold dinvR dinv
  rw [degR_eq_deg, cmp_deg]
  unfold Scalar.select
  exact if_pos rfl

/-- The normaliser is a real number: the reciprocal root of a positive real. -/
theorem dinv_real (dst : Fin EE → BitVec 32) (v : Fin NN) : IsReal (dinv dst v) := by
  unfold dinv
  rw [deg_eq, Ideal.rsqrt_coe]
  have hp := card_add_one_pos dst v
  rw [if_neg (not_lt.mpr hp.le), if_neg hp.ne']
  exact IsReal.coe _

/-! ## (d) The feature product of real matrices is real -/

theorem H_real (X : Fin NN → Fin 128 → EReal) (W : Fin 128 → Fin 128 → EReal)
    (hX : ∀ i k, IsReal (X i k)) (hW : ∀ k j, IsReal (W k j)) (i : Fin NN) (j : Fin 128) : IsReal (H X W i j) :=
  IsReal.sum _ _ fun k _ => (hX i k).mul (hW k j)

/-! ## (e) One layer -/

/-- On real data the two forms of a layer agree: the factor dinv v distributes over the finite sum of reals. -/
theorem layerK_eq_layerR (src dst : Fin EE → BitVec 32) (X : Fin NN → Fin 128 → EReal)
    (W : Fin 128 → Fin 128 → EReal) (b : Fin 128 → EReal)
    (hX : ∀ i k, IsReal (X i k)) (hW : ∀ k j, IsReal (W k j)) (hb : ∀ k, IsReal (b k))
    (v : Fin NN) (k : Fin 128) : layerK src dst X W b v k = layerR src dst X W b v k := by
  choose d hd using fun u => (dinv_real dst u : ∃ r : ℝ, dinv dst u = (r : EReal))
  choose h hh using fun i => (H_real X W hX hW i k : ∃ r : ℝ, H X W i k = (r : EReal))
  obtain ⟨β, hβ⟩ := hb k
  -- an edge into v has destination row v
  have hs : ∑ e ∈ into dst v,
        H X W (rowOf (src e)) k * ((dinv dst (rowOf (src e)) * 1) * dinv dst (rowOf (dst e)))
      = ∑ e ∈ into dst v, H X W (rowOf (src e)) k * ((dinv dst (rowOf (src e)) * 1) * dinv dst v) :=
    Finset.sum_congr rfl fun e he => by rw [rowOf_eq (dst e) v (Finset.mem_filter.mp he).2]
  unfold layerK layerR
  rw [sum_into' dst v]
  simp only [cat_castAdd, cat_natAdd, rowOf_ofNat, dinvR_eq_dinv]
  rw [hs]
  simp only [hd, hh, hβ, zero_add, mul_one, ← EReal.coe_mul, ← coe_sum, ← EReal.coe_add]
  refine congrArg (fun t : ℝ => max (t : EReal) 0) ?_
  have hm : ∑ e ∈ into dst v, h (rowOf (src e)) * (d (rowOf (src e)) * d v)
      = d v * ∑ e ∈ into dst v, h (rowOf (src e)) * d (rowOf (src e)) := by
    rw [Finset.mul_sum]; exact Finset.sum_congr rfl fun e _ => by ring
  rw [hm]; ring

/-! ## (f) A layer of real data is real -/

theorem layerK_real (src dst : Fin EE → BitVec 32) (X : Fin NN → Fin 128 → EReal)
    (W : Fin 128 → Fin 128 → EReal) (b : Fin 128 → EReal)
    (hX : ∀ i k, IsReal (X i k)) (hW : ∀ k j, IsReal (W k j)) (hb : ∀ k, IsReal (b k))
    (v : Fin NN) (k : Fin 128) : IsReal (layerK src dst X W b v k) := by
  unfold layerK
  exact IsReal.max (IsReal.add (IsReal.mul (dinv_real dst v) (IsReal.add
    (IsReal.add IsReal.zero (IsReal.sum _ _ fun e _ => (H_real X W hX hW _ k).mul (dinv_real dst _)))
    ((H_real X W hX hW v k).mul (dinv_real dst v)))) (hb k)) IsReal.zero

theorem layerK_eq_layerR_fun (src dst : Fin EE → BitVec 32) (X : Fin NN → Fin 128 → EReal)
    (W : Fin 128 → Fin 128 → EReal) (b : Fin 128 → EReal)
    (hX : ∀ i k, IsReal (X i k)) (hW : ∀ k j, IsReal (W k j)) (hb : ∀ k, IsReal (b k)) :
    layerK src dst X W b = layerR src dst X W b :=
  funext fun v => funext fun k => layerK_eq_layerR src dst X W b hX hW hb v k

/-! ## (g) Both layers, column by column -/

theorem outK_eq_outR (src dst : Fin EE → BitVec 32) (x : Fin NN → Fin 128 → EReal)
    (W1 : Fin 128 → Fin 128 → EReal) (b1 : Fin 128 → EReal) (W2 : Fin 128 → Fin 128 → EReal) (b2 : Fin 128 → EReal)
    (hx : ∀ i k, IsReal (x i k)) (hW1 : ∀ k j, IsReal (W1 k j)) (hb1 : ∀ k, IsReal (b1 k))
    (hW2 : ∀ k j, IsReal (W2 k j)) (hb2 : ∀ k, IsReal (b2 k)) (v : Fin NN) (c : Fin 256) :
    outK src dst x W1 b1 W2 b2 v c = outR src dst x W1 b1 W2 b2 v c := by
  unfold outK outR
  by_cases hc : c.val < 128
  · rw [dif_pos hc, dif_pos hc]
    exact layerK_eq_layerR src dst x W1 b1 hx hW1 hb1 v _
  · rw [dif_neg hc, dif_neg hc, ← layerK_eq_layerR_fun src dst x W1 b1 hx hW1 hb1]
    exact layerK_eq_layerR src dst _ W2 b2 (layerK_real src dst x W1 b1 hx hW1 hb1) hW2 hb2 v _

open Idealize.ShloMosaic.ValueIdx in
/-- The two forms over the argument arrays agree when every float entry is a real number. -/
theorem arrK_eq_arrR (x : FVec Ideal ⟨2, ![100000, 128]⟩ .f32) (ei : IVec ⟨2, ![2, 1600000]⟩ 32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32)
    (hx : ∀ i, IsReal (x i)) (hW1 : ∀ i, IsReal (W1 i)) (hb1 : ∀ i, IsReal (b1 i))
    (hW2 : ∀ i, IsReal (W2 i)) (hb2 : ∀ i, IsReal (b2 i)) :
    arrK x ei W1 b1 W2 b2 = arrR x ei W1 b1 W2 b2 := by
  funext j
  unfold arrK arrR
  exact outK_eq_outR _ _ _ _ _ _ _ (fun i k => hx _) (fun i k => hW1 _) (fun k => hb1 _)
    (fun i k => hW2 _) (fun k => hb2 _) _ _

end Cert.GCN

end
-- ==== Proof.Finite.lean ====
/-
  From the precondition "every float argument is finite" to "every entry of every float argument is a real number".

  The precondition is the conjunction of five tests all (|a| < +inf), one per float argument. A conjunction of
  one-bit words that is 1 has every conjunct 1; an "all" (a reduction by "and" into a single word) that is 1 had
  a 1 at every index; and |x| < +inf, with |x| = max x (-x) on the extended reals, excludes both infinities, so
  x is a real number.
-/
import proofs.«103099_j38268158607494_2_alg».proof.Defs
import proofs.«103099_j38268158607494_2_alg».proof.Proof.LibIdealReal
import Idealize.ShloMosaic.Lib.ReduceAll
import Idealize.ShloMosaic.Lib.ValueIdx

noncomputable section

namespace Cert.GCN

open Idealize.ShloMosaic
open Cert.LibIdealReal

/-- The word 0x7F800000 denotes +inf. -/
theorem inf_bits : Ideal.ofBits .f32 0x7F800000#32 = (⊤ : EReal) := by
  simp [Ideal.ofBits, Ideal.ieee]

/-- An extended real whose absolute value is below +inf is a real number. -/
theorem isReal_of_abs_lt (x : EReal)
    (h : Ideal.cmp .olt (max x (-x)) (Ideal.ofBits .f32 0x7F800000#32) = 1#1) : IsReal x := by
  rw [inf_bits] at h
  have hlt : max x (-x) < ⊤ := by
    by_contra hn
    have h0 : Ideal.cmp .olt (max x (-x)) ⊤ = BitVec.ofBool (decide (max x (-x) < ⊤)) := rfl
    rw [h0, decide_eq_false hn] at h
    exact absurd h (by decide)
  induction x using EReal.rec with
  | bot => simp at hlt
  | coe r => exact IsReal.coe r
  | top => simp at hlt

instance : Subsingleton (⟨0, ![]⟩ : Shape).Idx := ⟨fun a b => funext fun d => d.elim0⟩

/-- One test all (|a| < +inf) that came out 1: every entry of a is a real number. -/
theorem real_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (init : IVec ⟨0, ![]⟩ 1) (j : (⟨0, ![]⟩ : Shape).Idx)
    (e : Host.reduce IntOp.andi
        (cmpf .olt (Host.absf a) (broadcastInDim s ![] hb (constant (F := Ideal) ⟨0, ![]⟩ .f32 0x7F800000#32)))
        init hr hu j = 1#1) (i : s.Idx) : IsReal (a i) :=
  isReal_of_abs_lt (a i) (Host.reduce_andi_all _ init hr hu j e i)

/-- Under the precondition every entry of the five float arguments is a real number. -/
theorem real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : (⟨2, ![100000, 128]⟩ : Shape).Idx, IsReal ((m ((c.tc : Thread Cert.KernelIdeal.nD Cert.KernelIdeal.τ).loc Cert.KernelIdeal.main_arg0) : FVec Ideal ⟨2, ![100000, 128]⟩ .f32) i))
    ∧ (∀ i : (⟨2, ![128, 128]⟩ : Shape).Idx, IsReal ((m ((c.tc : Thread Cert.KernelIdeal.nD Cert.KernelIdeal.τ).loc Cert.KernelIdeal.main_arg2) : FVec Ideal ⟨2, ![128, 128]⟩ .f32) i))
    ∧ (∀ i : (⟨1, ![128]⟩ : Shape).Idx, IsReal ((m ((c.tc : Thread Cert.KernelIdeal.nD Cert.KernelIdeal.τ).loc Cert.KernelIdeal.main_arg3) : FVec Ideal ⟨1, ![128]⟩ .f32) i))
    ∧ (∀ i : (⟨2, ![128, 128]⟩ : Shape).Idx, IsReal ((m ((c.tc : Thread Cert.KernelIdeal.nD Cert.KernelIdeal.τ).loc Cert.KernelIdeal.main_arg4) : FVec Ideal ⟨2, ![128, 128]⟩ .f32) i))
    ∧ (∀ i : (⟨1, ![128]⟩ : Shape).Idx, IsReal ((m ((c.tc : Thread Cert.KernelIdeal.nD Cert.KernelIdeal.τ).loc Cert.KernelIdeal.main_arg5) : FVec Ideal ⟨1, ![128]⟩ .f32) i)) := by
  have e := congrFun (h c) ValueIdx.ix0
  unfold Cert.Pre_finite_inputs.fn Cert.Pre_finite_inputs.fn_part1 at e
  dsimp only at e
  -- a conjunction of one-bit words that is 1 has every conjunct 1
  obtain ⟨e1234, e5⟩ := IntOp.andi_eq_one.1 e
  obtain ⟨e123, e4⟩ := IntOp.andi_eq_one.1 e1234
  obtain ⟨e12, e3⟩ := IntOp.andi_eq_one.1 e123
  obtain ⟨e1, e2⟩ := IntOp.andi_eq_one.1 e12
  exact ⟨real_of_all _ _ _ _ _ _ e1, real_of_all _ _ _ _ _ _ e2, real_of_all _ _ _ _ _ _ e3,
    real_of_all _ _ _ _ _ _ e4, real_of_all _ _ _ _ _ _ e5⟩

end Cert.GCN

end
-- ==== Proof.lean ====
/-
  A two-layer graph convolution (N = 100000 nodes, 1600000 edges, 128 features per layer) against its reference.

  Per layer both programs compute, at node v and feature k,
      max (sum over the edges e into v, and v's self loop, of (X W) (s e) k * dinv (s e) * dinv v  +  b k) 0,
  dinv v the reciprocal root of v's degree with the self loop counted. The kernel program factors the sum: it scales
  the rows of X W by dinv in a matmul launch, gathers and accumulates the scaled rows on the host, and finishes in an
  epilogue launch with dinv v * (accumulated + own scaled row) + b. The reference appends the self loops to the edge
  list and weights each term by dinv (s e) * 1 * dinv (d e). The two agree once every summand is a real number,
  which the precondition (all float inputs finite) provides: distributing dinv v over the sum is the one step that
  needs it.

  The pieces: the specification of both forms (Spec) and their equality for real data (Algebra); the precondition
  read as "every entry is real" (Finite); the kernel program's run with its result named (KerRun), the four launches
  as whole-array functions (KerReg0 … KerReg3 over KerPay), the fold through the segments walked back to the
  arguments (KerChain) and its term read index by index (KerValue); the reference's run (RefRun, RefRead: repaired
  copies of the generated modules) read stage by stage (RefOps, RefStages).
-/
import proofs.«103099_j38268158607494_2_alg».proof.Defs
import proofs.«103099_j38268158607494_2_alg».proof.Proof.Gen.Kernel
import proofs.«103099_j38268158607494_2_alg».proof.Proof.Gen.Kernel.Skeleton
import proofs.«103099_j38268158607494_2_alg».proof.Proof.Gen.Kernel.Launch
import proofs.«103099_j38268158607494_2_alg».proof.Proof.Gen.Kernel.Points
import proofs.«103099_j38268158607494_2_alg».proof.Proof.Gen.Kernel.Frame
import proofs.«103099_j38268158607494_2_alg».proof.Proof.Gen.KernelIdeal
import proofs.«103099_j38268158607494_2_alg».proof.Proof.Gen.KernelIdeal.Skeleton
import proofs.«103099_j38268158607494_2_alg».proof.Proof.Gen.KernelIdeal.Launch
import proofs.«103099_j38268158607494_2_alg».proof.Proof.Gen.KernelIdeal.Points
import proofs.«103099_j38268158607494_2_alg».proof.Proof.Gen.KernelIdeal.Frame
import proofs.«103099_j38268158607494_2_alg».proof.Proof.Gen.ReferenceIdeal
import proofs.«103099_j38268158607494_2_alg».proof.Proof.Gen.Pre_finite_inputs
import proofs.«103099_j38268158607494_2_alg».proof.Proof.KerRun
import proofs.«103099_j38268158607494_2_alg».proof.Proof.KerChain
import proofs.«103099_j38268158607494_2_alg».proof.Proof.KerValue
import proofs.«103099_j38268158607494_2_alg».proof.Proof.RefStages
import proofs.«103099_j38268158607494_2_alg».proof.Proof.Algebra
import proofs.«103099_j38268158607494_2_alg».proof.Proof.Finite
import Idealize.ShloMosaic.Adequacy
import Idealize.ShloMosaic.Init

noncomputable section

namespace Cert.Proof

open Idealize.ShloMosaic Idealize.SL.Sem Cert.Kernel

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the factored form of the argument
    arrays in their result buffers: the kernel program by its run, its fold and its term read at an index; the
    reference by its run read stage by stage, which gives the edge-list form, equal to the factored one because the
    precondition makes every entry of the float arguments a real number. -/
theorem algebraic : Cert.algebraic_KernelIdeal_ReferenceIdeal := by
  intro m ρ m' ρ' hpre hagree
  refine ⟨fun c => Cert.GCN.arrK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.RunV.run_result (F := Ideal) m ρ)
    exact (Cert.KernelIdeal.Chain.w8_v38 m ρ c).trans (Cert.KernelIdeal.Val.out_eq _ _ _ _ _ _)
  · refine (θ_run Cert.ReferenceIdeal.defs _ _).mono (fun r h c => ⟨(h c).1.trans ?_, (h c).2⟩)
      (Cert.ReferenceIdeal.ValueP.run (F := Ideal) m' ρ')
    obtain ⟨hx, hW1, hb1, hW2, hb2⟩ := Cert.GCN.real_of_pre m hpre c
    rw [Cert.GCN.Ref.result, (hagree c).1, (hagree c).2.1, (hagree c).2.2.1, (hagree c).2.2.2.1, (hagree c).2.2.2.2.1,
      (hagree c).2.2.2.2.2]
    exact (Cert.GCN.arrK_eq_arrR _ _ _ _ _ _ hx hW1 hb1 hW2 hb2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
